-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x32x256x256 : Shape := ⟨5, ![4, 4, 32, 256, 256]⟩
abbrev S_ : Shape := ⟨0, ![]⟩

class Facts : Prop where
  bcast_S_S4x4x32x256x256 : S_.BroadcastsInDim S4x4x32x256x256 (![] : Fin 0 → Fin S4x4x32x256x256.rank)
  reducesTo_S4x4x32x256x256_S_d0_1_2_3_4 : S4x4x32x256x256.ReducesTo [0, 1, 2, 3, 4] S_
  h_S_ : 0 < S_.numel

variable [Facts]

def fn {F : FTy → Type} [FloatOps F] (main_arg0 : FVec F S4x4x32x256x256 .f32) : IVec S_ 1 :=
  let main_v0 : FVec F S4x4x32x256x256 .f32 := Host.absf main_arg0
  let main_cst : FVec F S_ .f32 := constant S_ .f32 0x7F800000#32
  let main_v1 : FVec F S4x4x32x256x256 .f32 := broadcastInDim S4x4x32x256x256 ![] bcast_S_S4x4x32x256x256 main_cst
  let main_v2 : IVec S4x4x32x256x256 1 := cmpf .olt main_v0 main_v1
  let main_c : IVec S_ 1 := constantI S_ 1 1#1
  let main_v3 : IVec S_ 1 := (fun x v => Host.reduce IntOp.andi x v reducesTo_S4x4x32x256x256_S_d0_1_2_3_4 h_S_) main_v2 main_c
  main_v3
-- ==== Kernel.lean ====
abbrev S4x4x32x256x256 : Shape := ⟨5, ![4, 4, 32, 256, 256]⟩
abbrev S1x1x32x256x256 : Shape := ⟨5, ![1, 1, 32, 256, 256]⟩
abbrev S32x256x256 : Shape := ⟨3, ![32, 256, 256]⟩
abbrev S1x1x1x256x256 : Shape := ⟨5, ![1, 1, 1, 256, 256]⟩
abbrev S256x256 : Shape := ⟨2, ![256, 256]⟩
abbrev S254x254 : Shape := ⟨2, ![254, 254]⟩
abbrev S1x1x1x254x254 : Shape := ⟨5, ![1, 1, 1, 254, 254]⟩

abbrev nBuf : Space → Nat
  | .hbm => 2
  | .vmem => 4
  | .smem => 0
  | _ => 0

abbrev bufTy : (tb : Table) → Fin (tcTables nBuf tb) → BufTy
  | .hbm, ⟨0, _⟩ => ⟨S4x4x32x256x256, .f32⟩
  | .hbm, ⟨1, _⟩ => ⟨S4x4x32x256x256, .f32⟩
  | .local _ .vmem, ⟨0, _⟩ => ⟨S1x1x32x256x256, .f32⟩
  | .local _ .vmem, ⟨1, _⟩ => ⟨S1x1x32x256x256, .f32⟩
  | .local _ .vmem, ⟨2, _⟩ => ⟨S1x1x32x256x256, .f32⟩
  | .local _ .vmem, ⟨3, _⟩ => ⟨S1x1x32x256x256, .f32⟩
  | _, _ => ⟨S4x4x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c1_i32 : BitVec 32 := 1#32
  let c30_i32 : BitVec 32 := 30#32
  let v4 : BitVec 32 := Scalar.addi c1_i32 c30_i32
  let c1_i32_4 : BitVec 32 := 1#32
  ⟨c1_i32, v4, c1_i32_4⟩
def k0_off1 (k0_t1 : Fin k0_t1_loop.trips) : Fin 5 → Nat :=
  let c0_7 : Index := 0#32
  let c0_8 : Index := 0#32
  let c1_i32 : BitVec 32 := 1#32
  let c1_i32_4 : BitVec 32 := 1#32
  let arg4 : BitVec 32 := Scf.iv c1_i32 c1_i32_4 k0_t1
  let c1_i32_6 : BitVec 32 := 1#32
  let v5 : BitVec 32 := Scalar.subi arg4 c1_i32_6
  let v6 : Index := Scalar.indexCast v5
  let c0_9 : Index := 0#32
  let c0_10 : Index := 0#32
  ![0, 0, v6.toNat, 0, 0]
def k0_off2 (k0_t1 : Fin k0_t1_loop.trips) : Fin 5 → Nat :=
  let c0_11 : Index := 0#32
  let c0_12 : Index := 0#32
  let c1_i32 : BitVec 32 := 1#32
  let c1_i32_4 : BitVec 32 := 1#32
  let arg4 : BitVec 32 := Scf.iv c1_i32 c1_i32_4 k0_t1
  let v9 : Index := Scalar.indexCast arg4
  let c0_13 : Index := 0#32
  let c0_14 : Index := 0#32
  ![0, 0, v9.toNat, 0, 0]
def k0_off3 (k0_t1 : Fin k0_t1_loop.trips) : Fin 5 → Nat :=
  let c0_16 : Index := 0#32
  let c0_17 : Index := 0#32
  let c1_i32 : BitVec 32 := 1#32
  let c1_i32_4 : BitVec 32 := 1#32
  let arg4 : BitVec 32 := Scf.iv c1_i32 c1_i32_4 k0_t1
  let c1_i32_15 : BitVec 32 := 1#32
  let v12 : BitVec 32 := Scalar.addi arg4 c1_i32_15
  let v13 : Index := Scalar.indexCast v12
  let c0_18 : Index := 0#32
  let c0_19 : Index := 0#32
  ![0, 0, v13.toNat, 0, 0]
def k0_off4 (k0_t1 : Fin k0_t1_loop.trips) : Fin 5 → Nat :=
  let c0_20 : Index := 0#32
  let c0_21 : Index := 0#32
  let c1_i32 : BitVec 32 := 1#32
  let c1_i32_4 : BitVec 32 := 1#32
  let arg4 : BitVec 32 := Scf.iv c1_i32 c1_i32_4 k0_t1
  let v99 : Index := Scalar.indexCast arg4
  let c1 : Index := 1#32
  let c1_22 : Index := 1#32
  ![0, 0, v99.toNat, 1, 1]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x32x256x256_S1x1x32x256x256_0_0_0_0_0 : ∀ a, (![0, 0, 0, 0, 0] : Fin 5 → Nat) a + S1x1x32x256x256.size a ≤ S1x1x32x256x256.size a
  h_S1x1x32x256x256 : 0 < S1x1x32x256x256.numel
  shapeCasts_S1x1x32x256x256_S32x256x256 : S1x1x32x256x256.ShapeCasts S32x256x256
  shapeCasts_S32x256x256_S1x1x32x256x256 : S32x256x256.ShapeCasts S1x1x32x256x256
  h_S1x1x1x256x256 : 0 < S1x1x1x256x256.numel
  shapeCasts_S1x1x1x256x256_S256x256 : S1x1x1x256x256.ShapeCasts S256x256
  slices_S256x256_o1_1_S254x254 : S256x256.Slices ![1, 1] S254x254
  slices_S256x256_o0_0_S254x254 : S256x256.Slices ![0, 0] S254x254
  slices_S256x256_o0_1_S254x254 : S256x256.Slices ![0, 1] S254x254
  slices_S256x256_o0_2_S254x254 : S256x256.Slices ![0, 2] S254x254
  slices_S256x256_o1_0_S254x254 : S256x256.Slices ![1, 0] S254x254
  slices_S256x256_o1_2_S254x254 : S256x256.Slices ![1, 2] S254x254
  slices_S256x256_o2_0_S254x254 : S256x256.Slices ![2, 0] S254x254
  slices_S256x256_o2_1_S254x254 : S256x256.Slices ![2, 1] S254x254
  slices_S256x256_o2_2_S254x254 : S256x256.Slices ![2, 2] S254x254
  natLt_1_32 : 1 < 32
  h_S1x1x1x254x254 : 0 < S1x1x1x254x254.numel
  shapeCasts_S1x1x1x254x254_S254x254 : S1x1x1x254x254.ShapeCasts S254x254
  shapeCasts_S254x254_S1x1x1x254x254 : S254x254.ShapeCasts S1x1x1x254x254
  hrank0 : 0 < grid0.rank
  k0_t1_ok : k0_t1_loop.OK
  k0_off1_inb : ∀ k0_t1 : Fin k0_t1_loop.trips, ∀ a, (k0_off1 k0_t1) a + S1x1x1x256x256.size a ≤ S1x1x32x256x256.size a
  k0_off2_inb : ∀ k0_t1 : Fin k0_t1_loop.trips, ∀ a, (k0_off2 k0_t1) a + S1x1x1x256x256.size a ≤ S1x1x32x256x256.size a
  k0_off3_inb : ∀ k0_t1 : Fin k0_t1_loop.trips, ∀ a, (k0_off3 k0_t1) a + S1x1x1x256x256.size a ≤ S1x1x32x256x256.size a
  k0_off4_inb : ∀ k0_t1 : Fin k0_t1_loop.trips, ∀ a, (k0_off4 k0_t1) a + S1x1x1x254x254.size a ≤ S1x1x32x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x256x256.size a ≤ S4x4x32x256x256.size a
  hwx0_0 : ∀ i : grid0.Coords, EltTy.bits .f32 = 32 ∨ (Rect.block (s := S4x4x32x256x256) S1x1x32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32x256x256.size a ≤ S4x4x32x256x256.size a
  hwx0_1 : ∀ i : grid0.Coords, EltTy.bits .f32 = 32 ∨ (Rect.block (s := S4x4x32x256x256) S1x1x32x256x256.size (cc0_transform_1 i) (hinb0_1 i)).WholeWords (EltTy.packing .f32)

variable [Facts₀]

abbrev win0_0 : Pipeline.Window sig grid0 :=
  Pipeline.Window.ofSpec (Memref.whole main_arg0) S1x1x32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x32x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x4x32x256x256 : Shape := ⟨5, ![4, 4, 32, 256, 256]⟩
abbrev S4x4x30x254x254 : Shape := ⟨5, ![4, 4, 30, 254, 254]⟩
abbrev S_ : Shape := ⟨0, ![]⟩
abbrev S1 : Shape := ⟨1, ![1]⟩
abbrev S3 : Shape := ⟨1, ![3]⟩

abbrev nBuf : Space → Nat
  | .hbm => 94
  | .vmem => 0
  | .smem => 0
  | _ => 0

abbrev bufTy : (tb : Table) → Fin (tcTables nBuf tb) → BufTy
  | .hbm, ⟨0, _⟩ => ⟨S4x4x32x256x256, .f32⟩
  | .hbm, ⟨1, _⟩ => ⟨S4x4x30x254x254, .f32⟩
  | .hbm, ⟨2, _⟩ => ⟨S_, .i1⟩
  | .hbm, ⟨3, _⟩ => ⟨S4x4x30x254x254, .i1⟩
  | .hbm, ⟨4, _⟩ => ⟨S4x4x30x254x254, .f32⟩
  | .hbm, ⟨5, _⟩ => ⟨S4x4x30x254x254, .i1⟩
  | .hbm, ⟨6, _⟩ => ⟨S4x4x30x254x254, .i1⟩
  | .hbm, ⟨7, _⟩ => ⟨S4x4x30x254x254, .f32⟩
  | .hbm, ⟨8, _⟩ => ⟨S4x4x30x254x254, .i1⟩
  | .hbm, ⟨9, _⟩ => ⟨S4x4x30x254x254, .i1⟩
  | .hbm, ⟨10, _⟩ => ⟨S4x4x30x254x254, .f32⟩
  | .hbm, ⟨11, _⟩ => ⟨S4x4x30x254x254, .i1⟩
  | .hbm, ⟨12, _⟩ => ⟨S4x4x30x254x254, .i1⟩
  | .hbm, ⟨13, _⟩ => ⟨S4x4x30x254x254, .f32⟩
  | .hbm, ⟨14, _⟩ => ⟨S4x4x30x254x254, .i1⟩
  | .hbm, ⟨15, _⟩ => ⟨S4x4x30x254x254, .i1⟩
  | .hbm, ⟨16, _⟩ => ⟨S4x4x30x254x254, .f32⟩
  | .hbm, ⟨17, _⟩ => ⟨S4x4x30x254x254, .i1⟩
  | .hbm, ⟨18, _⟩ => ⟨S4x4x30x254x254, .i1⟩
  | .hbm, ⟨19, _⟩ => ⟨S4x4x30x254x254, .f32⟩
  | .hbm, ⟨20, _⟩ => ⟨S4x4x30x254x254, .i1⟩
  | .hbm, ⟨21, _⟩ => ⟨S4x4x30x254x254, .i1⟩
  | .hbm, ⟨22, _⟩ => ⟨S4x4x30x254x254, .f32⟩
  | .hbm, ⟨23, _⟩ => ⟨S4x4x30x254x254, .i1⟩
  | .hbm, ⟨24, _⟩ => ⟨S4x4x30x254x254, .i1⟩
  | .hbm, ⟨25, _⟩ => ⟨S4x4x30x254x254, .f32⟩
  | .hbm, ⟨26, _⟩ => ⟨S4x4x30x254x254, .i1⟩
  | .hbm, ⟨27, _⟩ => ⟨S4x4x30x254x254, .i1⟩
  | .hbm, ⟨28, _⟩ => ⟨S4x4x30x254x254, .f32⟩
  | .hbm, ⟨29, _⟩ => ⟨S4x4x30x254x254, .i1⟩
  | .hbm, ⟨30, _⟩ => ⟨S4x4x30x254x254, .i1⟩
  | .hbm, ⟨31, _⟩ => ⟨S4x4x30x254x254, .f32⟩
  | .hbm, ⟨32, _⟩ => ⟨S4x4x30x254x254, .i1⟩
  | .hbm, ⟨33, _⟩ => ⟨S4x4x30x254x254, .i1⟩
  | .hbm, ⟨34, _⟩ => ⟨S4x4x30x254x254, .f32⟩
  | .hbm, ⟨35, _⟩ => ⟨S4x4x30x254x254, .i1⟩
  | .hbm, ⟨36, _⟩ => ⟨S4x4x30x254x254, .i1⟩
  | .hbm, ⟨37, _⟩ => ⟨S4x4x30x254x254, .f32⟩
  | .hbm, ⟨38, _⟩ => ⟨S4x4x30x254x254, .i1⟩
  | .hbm, ⟨39, _⟩ => ⟨S4x4x30x254x254, .i1⟩
  | .hbm, ⟨40, _⟩ => ⟨S4x4x30x254x254, .f32⟩
  | .hbm, ⟨41, _⟩ => ⟨S4x4x30x254x254, .i1⟩
  | .hbm, ⟨42, _⟩ => ⟨S4x4x30x254x254, .i1⟩
  | .hbm, ⟨43, _⟩ => ⟨S4x4x30x254x254, .f32⟩
  | .hbm, ⟨44, _⟩ => ⟨S4x4x30x254x254, .i1⟩
  | .hbm, ⟨45, _⟩ => ⟨S4x4x30x254x254, .i1⟩
  | .hbm, ⟨46, _⟩ => ⟨S4x4x30x254x254, .f32⟩
  | .hbm, ⟨47, _⟩ => ⟨S4x4x30x254x254, .i1⟩
  | .hbm, ⟨48, _⟩ => ⟨S4x4x30x254x254, .i1⟩
  | .hbm, ⟨49, _⟩ => ⟨S4x4x30x254x254, .f32⟩
  | .hbm, ⟨50, _⟩ => ⟨S4x4x30x254x254, .i1⟩
  | .hbm, ⟨51, _⟩ => ⟨S4x4x30x254x254, .i1⟩
  | .hbm, ⟨52, _⟩ => ⟨S4x4x30x254x254, .f32⟩
  | .hbm, ⟨53, _⟩ => ⟨S4x4x30x254x254, .i1⟩
  | .hbm, ⟨54, _⟩ => ⟨S4x4x30x254x254, .i1⟩
  | .hbm, ⟨55, _⟩ => ⟨S4x4x30x254x254, .f32⟩
  | .hbm, ⟨56, _⟩ => ⟨S4x4x30x254x254, .i1⟩
  | .hbm, ⟨57, _⟩ => ⟨S4x4x30x254x254, .i1⟩
  | .hbm, ⟨58, _⟩ => ⟨S4x4x30x254x254, .f32⟩
  | .hbm, ⟨59, _⟩ => ⟨S4x4x30x254x254, .i1⟩
  | .hbm, ⟨60, _⟩ => ⟨S4x4x30x254x254, .i1⟩
  | .hbm, ⟨61, _⟩ => ⟨S4x4x30x254x254, .f32⟩
  | .hbm, ⟨62, _⟩ => ⟨S4x4x30x254x254, .i1⟩
  | .hbm, ⟨63, _⟩ => ⟨S4x4x30x254x254, .i1⟩
  | .hbm, ⟨64, _⟩ => ⟨S4x4x30x254x254, .f32⟩
  | .hbm, ⟨65, _⟩ => ⟨S4x4x30x254x254, .i1⟩
  | .hbm, ⟨66, _⟩ => ⟨S4x4x30x254x254, .i1⟩
  | .hbm, ⟨67, _⟩ => ⟨S4x4x30x254x254, .f32⟩
  | .hbm, ⟨68, _⟩ => ⟨S4x4x30x254x254, .i1⟩
  | .hbm, ⟨69, _⟩ => ⟨S4x4x30x254x254, .i1⟩
  | .hbm, ⟨70, _⟩ => ⟨S4x4x30x254x254, .f32⟩
  | .hbm, ⟨71, _⟩ => ⟨S4x4x30x254x254, .i1⟩
  | .hbm, ⟨72, _⟩ => ⟨S4x4x30x254x254, .i1⟩
  | .hbm, ⟨73, _⟩ => ⟨S4x4x30x254x254, .f32⟩
  | .hbm, ⟨74, _⟩ => ⟨S4x4x30x254x254, .i1⟩
  | .hbm, ⟨75, _⟩ => ⟨S4x4x30x254x254, .i1⟩
  | .hbm, ⟨76, _⟩ => ⟨S4x4x30x254x254, .f32⟩
  | .hbm, ⟨77, _⟩ => ⟨S4x4x30x254x254, .i1⟩
  | .hbm, ⟨78, _⟩ => ⟨S4x4x30x254x254, .i1⟩
  | .hbm, ⟨79, _⟩ => ⟨S4x4x30x254x254, .f32⟩
  | .hbm, ⟨80, _⟩ => ⟨S4x4x30x254x254, .i1⟩
  | .hbm, ⟨81, _⟩ => ⟨S4x4x30x254x254, .i1⟩
  | .hbm, ⟨82, _⟩ => ⟨S_, .i1⟩
  | .hbm, ⟨83, _⟩ => ⟨S4x4x32x256x256, .i1⟩
  | .hbm, ⟨84, _⟩ => ⟨S_, .i32⟩
  | .hbm, ⟨85, _⟩ => ⟨S1, .i32⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S3, .i32⟩
  | .hbm, ⟨91, _⟩ => ⟨S4x4x32x256x256, .i1⟩
  | .hbm, ⟨92, _⟩ => ⟨S4x4x32x256x256, .f32⟩
  | .hbm, ⟨93, _⟩ => ⟨S4x4x32x256x256, .f32⟩
  | _, _ => ⟨S4x4x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_c_0 : Ref sig .tc := ⟨.hbm, 82, rfl⟩
abbrev main_v80 : Ref sig .tc := ⟨.hbm, 83, rfl⟩
abbrev main_c_1 : Ref sig .tc := ⟨.hbm, 84, rfl⟩
abbrev main_v81 : Ref sig .tc := ⟨.hbm, 85, rfl⟩
abbrev main_c_2 : Ref sig .tc := ⟨.hbm, 86, rfl⟩
abbrev main_v82 : Ref sig .tc := ⟨.hbm, 87, rfl⟩
abbrev main_c_3 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩

abbrev nD : Nat := 1
abbrev τ : Topo := Topo.v7x

variable {F : FTy → Type} [FloatOps F]

class Facts₀ : Prop where
  slices_S4x4x32x256x256_S4x4x30x254x254_0_0_1_1_1 : S4x4x32x256x256.Slices ![0, 0, 1, 1, 1] S4x4x30x254x254
  bcast_S_S4x4x30x254x254 : S_.BroadcastsInDim S4x4x30x254x254 (![] : Fin 0 → Fin S4x4x30x254x254.rank)
  slices_S4x4x32x256x256_S4x4x30x254x254_0_0_0_0_0 : S4x4x32x256x256.Slices ![0, 0, 0, 0, 0] S4x4x30x254x254
  slices_S4x4x32x256x256_S4x4x30x254x254_0_0_0_0_1 : S4x4x32x256x256.Slices ![0, 0, 0, 0, 1] S4x4x30x254x254
  slices_S4x4x32x256x256_S4x4x30x254x254_0_0_0_0_2 : S4x4x32x256x256.Slices ![0, 0, 0, 0, 2] S4x4x30x254x254
  slices_S4x4x32x256x256_S4x4x30x254x254_0_0_0_1_0 : S4x4x32x256x256.Slices ![0, 0, 0, 1, 0] S4x4x30x254x254
  slices_S4x4x32x256x256_S4x4x30x254x254_0_0_0_1_1 : S4x4x32x256x256.Slices ![0, 0, 0, 1, 1] S4x4x30x254x254
  slices_S4x4x32x256x256_S4x4x30x254x254_0_0_0_1_2 : S4x4x32x256x256.Slices ![0, 0, 0, 1, 2] S4x4x30x254x254
  slices_S4x4x32x256x256_S4x4x30x254x254_0_0_0_2_0 : S4x4x32x256x256.Slices ![0, 0, 0, 2, 0] S4x4x30x254x254
  slices_S4x4x32x256x256_S4x4x30x254x254_0_0_0_2_1 : S4x4x32x256x256.Slices ![0, 0, 0, 2, 1] S4x4x30x254x254
  slices_S4x4x32x256x256_S4x4x30x254x254_0_0_0_2_2 : S4x4x32x256x256.Slices ![0, 0, 0, 2, 2] S4x4x30x254x254
  slices_S4x4x32x256x256_S4x4x30x254x254_0_0_1_0_0 : S4x4x32x256x256.Slices ![0, 0, 1, 0, 0] S4x4x30x254x254
  slices_S4x4x32x256x256_S4x4x30x254x254_0_0_1_0_1 : S4x4x32x256x256.Slices ![0, 0, 1, 0, 1] S4x4x30x254x254
  slices_S4x4x32x256x256_S4x4x30x254x254_0_0_1_0_2 : S4x4x32x256x256.Slices ![0, 0, 1, 0, 2] S4x4x30x254x254
  slices_S4x4x32x256x256_S4x4x30x254x254_0_0_1_1_0 : S4x4x32x256x256.Slices ![0, 0, 1, 1, 0] S4x4x30x254x254
  slices_S4x4x32x256x256_S4x4x30x254x254_0_0_1_1_2 : S4x4x32x256x256.Slices ![0, 0, 1, 1, 2] S4x4x30x254x254
  slices_S4x4x32x256x256_S4x4x30x254x254_0_0_1_2_0 : S4x4x32x256x256.Slices ![0, 0, 1, 2, 0] S4x4x30x254x254
  slices_S4x4x32x256x256_S4x4x30x254x254_0_0_1_2_1 : S4x4x32x256x256.Slices ![0, 0, 1, 2, 1] S4x4x30x254x254
  slices_S4x4x32x256x256_S4x4x30x254x254_0_0_1_2_2 : S4x4x32x256x256.Slices ![0, 0, 1, 2, 2] S4x4x30x254x254
  slices_S4x4x32x256x256_S4x4x30x254x254_0_0_2_0_0 : S4x4x32x256x256.Slices ![0, 0, 2, 0, 0] S4x4x30x254x254
  slices_S4x4x32x256x256_S4x4x30x254x254_0_0_2_0_1 : S4x4x32x256x256.Slices ![0, 0, 2, 0, 1] S4x4x30x254x254
  slices_S4x4x32x256x256_S4x4x30x254x254_0_0_2_0_2 : S4x4x32x256x256.Slices ![0, 0, 2, 0, 2] S4x4x30x254x254
  slices_S4x4x32x256x256_S4x4x30x254x254_0_0_2_1_0 : S4x4x32x256x256.Slices ![0, 0, 2, 1, 0] S4x4x30x254x254
  slices_S4x4x32x256x256_S4x4x30x254x254_0_0_2_1_1 : S4x4x32x256x256.Slices ![0, 0, 2, 1, 1] S4x4x30x254x254
  slices_S4x4x32x256x256_S4x4x30x254x254_0_0_2_1_2 : S4x4x32x256x256.Slices ![0, 0, 2, 1, 2] S4x4x30x254x254
  slices_S4x4x32x256x256_S4x4x30x254x254_0_0_2_2_0 : S4x4x32x256x256.Slices ![0, 0, 2, 2, 0] S4x4x30x254x254
  slices_S4x4x32x256x256_S4x4x30x254x254_0_0_2_2_1 : S4x4x32x256x256.Slices ![0, 0, 2, 2, 1] S4x4x30x254x254
  slices_S4x4x32x256x256_S4x4x30x254x254_0_0_2_2_2 : S4x4x32x256x256.Slices ![0, 0, 2, 2, 2] S4x4x30x254x254
  bcast_S_S4x4x32x256x256 : S_.BroadcastsInDim S4x4x32x256x256 (![] : Fin 0 → Fin S4x4x32x256x256.rank)
  bcast_S_S1 : S_.BroadcastsInDim S1 (![] : Fin 0 → Fin S1.rank)
  concatenates_S1_S1_S1_S3_d0 : Shape.Concatenates [S1, S1, S1] S3 0
  scatter_S4x4x32x256x256_S3_S4x4x30x254x254_01234_n_234_0_wf : ScatterDims.WF S4x4x32x256x256 S3 S4x4x30x254x254 [0, 1, 2, 3, 4] [] [2, 3, 4] 0

variable [Facts₀]

def scatter_S4x4x32x256x256_S3_S4x4x30x254x254_01234_n_234_0 : ScatterDims S4x4x32x256x256 S3 S4x4x30x254x254 where
  updateWindowDims := [0, 1, 2, 3, 4]
  insertedWindowDims := []
  scatterDimsToOperandDims := [2, 3, 4]
  indexVectorDim := 0
  wf := scatter_S4x4x32x256x256_S3_S4x4x30x254x254_01234_n_234_0_wf

class Facts : Prop extends Facts₀ where

variable [Facts]
-- ==== Proof.LibWritesOverlay.lean ====
/-
  Two readings of a buffer after stores through rectangles of one view, for any view and any prior contents.
  `read_writes_cons_overlay`: one more store through a rectangle `r` reads as the payload on `r` and as the earlier
  contents off it — `Rect.overlay` of what the earlier stores left —, so a run of stores whose rectangles are disjoint
  (a loop writing one slab per trip) is an iterated overlay that can be read one index at a time.
  `read_fill`: one store through the whole-shape rectangle at the origin (a zero fill) reads as its payload.
-/
import Idealize.ShloMosaic.Lib.WritesUnit
import Idealize.ShloMosaic.Lib.Memref
import Idealize.ShloMosaic.Lib.Exec.Geometry

namespace Cert.WritesOverlay

open Idealize.ShloMosaic

/-- Reading a buffer after one more store through a rectangle: the payload on the rectangle, the earlier contents off it. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons]
    exact View.read_slice_write_of_not_mem r _ _ _ (by rw [Rect.map_emb_univ]; exact hy)

/-- One store through the whole-shape rectangle at the origin leaves its payload. -/
theorem read_fill {sig' : RefSig} {κ : Kind} {sp : Space} {S : Shape} {e : EltTy} {Val : EltTy → Type} (v : View sig' κ sp S e)
    (f : v.ty.Contents Val) {off : Fin S.rank → ℕ} (h : off = fun _ => 0) (inb : ∀ a, off a + S.size a ≤ S.size a) (w : S.Idx → Val e) :
    v.read Val (v.writes Val f [(⟨Rect.unit off S.size inb, w⟩ : View.Piece Val S e)]) = w := by
  subst h; exact View.read_writes_whole v f w

end Cert.WritesOverlay
-- ==== Proof.KernelBody.lean ====
/-
  The kernel body of the 3x3x3 non-maxima suppression, run once: on a whole staging block `x0` of one (batch, channel)
  volume [1,1,32,256,256] the body first fills the output block with zeros and then, for the thirty interior depth planes
  z = 1 … 30 in turn, overwrites the 254 x 254 interior of plane z with the plane's payload (the centre value times the
  0/1 indicator that it is strictly greater than its 26 neighbours in planes z-1, z, z+1).  So the block it leaves is
  the zero block overlaid, plane after plane, by those thirty interior rectangles: `acc x0 n` after n planes,
  `outBlk x0 = acc x0 30` at the end.  The rectangles of different planes are disjoint, and the body never reads
  what it wrote, so each plane's payload is a function of the input block alone (`plane x0 k`).
  Everything here holds at any float instance.
-/
import proofs.«107580_j35021163332235_2_alg».proof.Proof.Gen.Kernel.Loops
import proofs.«107580_j35021163332235_2_alg».proof.Proof.Gen.Kernel.Frame
import proofs.«107580_j35021163332235_2_alg».proof.Proof.LibWritesOverlay

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WritesOverlay

variable {F : FTy → Type} [FloatOps F]

local notation "𝕄" => MT nD τ sig Unit (Elt F) ℕ (UR sig nD τ) ℕ

/-! ## One plane's payload and rectangle -/

/-- The interior of depth plane `k + 1`: rows and columns 1 … 254 of that plane. -/
abbrev planeRect (k : Fin k0_t1_loop.trips) : Rect S1x1x32x256x256 :=
  Rect.unit (s := S1x1x32x256x256) (k0_off4 k) S1x1x1x254x254.size (k0_off4_inb k)

/-- What trip `k` stores there: the body's arithmetic on the three planes `k`, `k + 1`, `k + 2` of the input block. -/
def plane (x0 : Vec F S1x1x32x256x256 .f32) (k : Fin k0_t1_loop.trips) : (planeRect k).shape.Idx → Elt F .f32 :=
  k0_pay7
    (k0_pay2 (View.ld x0 (Rect.unit (s := S1x1x32x256x256) (k0_off2 k) S1x1x1x256x256.size (k0_off2_inb k))))
    (k0_pay3 (View.ld x0 (Rect.unit (s := S1x1x32x256x256) (k0_off3 k) S1x1x1x256x256.size (k0_off3_inb k))))
    (k0_pay4 (View.ld x0 (Rect.unit (s := S1x1x32x256x256) (k0_off2 k) S1x1x1x256x256.size (k0_off2_inb k))))
    (k0_pay5 (View.ld x0 (Rect.unit (s := S1x1x32x256x256) (k0_off1 k) S1x1x1x256x256.size (k0_off1_inb k)))
      (View.ld x0 (Rect.unit (s := S1x1x32x256x256) (k0_off2 k) S1x1x1x256x256.size (k0_off2_inb k))))
    (k0_pay6 (View.ld x0 (Rect.unit (s := S1x1x32x256x256) (k0_off2 k) S1x1x1x256x256.size (k0_off2_inb k))))

/-- The block after the first `n` planes: zeros, overlaid by the interiors of planes 1 … n. -/
def acc (x0 : Vec F S1x1x32x256x256 .f32) : ℕ → Vec F S1x1x32x256x256 .f32
  | 0 => k0_pay1 (F := F)
  | n + 1 => if h : n < k0_t1_loop.trips then (planeRect ⟨n, h⟩).overlay (acc x0 n) (plane x0 ⟨n, h⟩) else acc x0 n

/-- The block the body leaves. -/
def outBlk (x0 : Vec F S1x1x32x256x256 .f32) : Vec F S1x1x32x256x256 .f32 :=
  acc x0 (Scf.trips k0_t1_loop.lb k0_t1_loop.ub k0_t1_loop.st)

/-! ## The loop's pieces are the planes -/

/-- Trip `k` stores exactly one piece, the plane's payload through the plane's rectangle, whatever the output held. -/
theorem tripL_eq (𝒱 : Variants) (c : Dev nD) (bd : Option 𝒱.V) (i : grid0.Coords) (arg2 : Memref sig .tc .vmem S1x1x32x256x256 .f32) (harg2 : arg2.IsWhole)
    (arg3 : Memref sig .tc .vmem S1x1x32x256x256 .f32) (harg3 : arg3.IsWhole) (x0 : Vec F S1x1x32x256x256 .f32) (k : Fin k0_t1_loop.trips)
    (f : BufTy.Contents (Elt F) arg3.view.ty) :
    tripL_k0_t1 (F := F) 𝒱 c bd i arg2 harg2 arg3 harg3 (harg2.unread x0) k f = [⟨planeRect k, plane x0 k⟩] := by
  unfold tripL_k0_t1 trip_k0_t1
  dsimp only
  unfold trip_k0_t1.sl.r trip_k0_t1.sl.r_1 trip_k0_t1.sl.r_2 trip_k0_t1.sl.r_3 trip_k0_t1.sl.r_4
  unfold plane
  simp only [View.readAt_eq_ld, harg2.read_unread]

/-- After `n` trips over a block that reads as zeros, the output reads as `acc x0 n`. -/
theorem read_pb (𝒱 : Variants) (c : Dev nD) (bd : Option 𝒱.V) (i : grid0.Coords) (arg2 : Memref sig .tc .vmem S1x1x32x256x256 .f32) (harg2 : arg2.IsWhole)
    (arg3 : Memref sig .tc .vmem S1x1x32x256x256 .f32) (harg3 : arg3.IsWhole) (x0 : Vec F S1x1x32x256x256 .f32)
    (G0 : BufTy.Contents (Elt F) arg3.view.ty) (hG0 : arg3.view.read (Elt F) G0 = k0_pay1 (F := F)) :
    ∀ n : ℕ, arg3.view.read (Elt F) (arg3.view.writes (Elt F) G0
        (pb_k0_t1 (F := F) 𝒱 c bd i arg2 harg2 arg3 harg3 (harg2.unread x0) G0 n)) = acc x0 n
  | 0 => by rw [pb_k0_t1.eq_1, View.writes_nil, hG0]; rfl
  | n + 1 => by
    rw [pb_k0_t1.eq_2]; unfold pb_k0_t1Step
    rw [acc.eq_2]
    by_cases h : n < k0_t1_loop.trips
    · rw [dif_pos h, dif_pos h, tripL_eq, List.singleton_append, read_writes_cons_overlay,
        read_pb 𝒱 c bd i arg2 harg2 arg3 harg3 x0 G0 hG0 n]
    · rw [dif_neg h, dif_neg h]; exact read_pb 𝒱 c bd i arg2 harg2 arg3 harg3 x0 G0 hG0 n

end Cert.Kernel.Body

end
-- ==== Proof.KernelRun.lean ====
/-
  The frame of the program from its body: the proof data names what every grid point leaves — the input block in
  place, the output block at `outBlk` of the input block —, the body's triple runs the zero fill and the thirty planes
  (the loop by its invariant, each trip one piece), and the pipeline's launch theorem turns the body obligation into
  the run of @main: every output block after the run is what its point wrote back, the argument array unchanged.
-/
import proofs.«107580_j35021163332235_2_alg».proof.Proof.KernelBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WritesOverlay

variable {F : FTy → Type} [FloatOps F]

local notation "𝕄" => MT nD τ sig Unit (Elt F) ℕ (UR sig nD τ) ℕ

/-! ## The body's triple -/

theorem zeros5 : (![0, 0, 0, 0, 0] : Fin 5 → ℕ) = fun _ => 0 := by funext a; fin_cases a <;> rfl

set_option maxHeartbeats 1000000 in
/-- On whole staging memrefs, the input's at `x0` and the output's at anything, the body runs to the input's unchanged
    and the output's at `outBlk x0`. -/
theorem kernelRun (c : Dev nD) (i : grid0.Coords) (arg2 : Memref sig .tc .vmem S1x1x32x256x256 .f32) (harg2 : arg2.IsWhole) (arg3 : Memref sig .tc .vmem S1x1x32x256x256 .f32) (harg3 : arg3.IsWhole)
    (x0 : Vec F S1x1x32x256x256 .f32) :
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ owns (c : Thread nD τ) arg3 fullShare (outBlk x0)) -∗ K ⟨⟩))
          ⊢ wp frame (wpE (defs₀ (F := F)) Variants.none c none) E (cc0__nms_kernel i arg2 harg2 arg3 harg3) K := by
    intro E K
    simp only [cc0__nms_kernel_eq_skeleton]; unfold cc0__nms_kernel_skel
    unfold owns
    iintro ⟨⟨%f0, %hf0, H0⟩, ⟨%d1, %f1, -, H1⟩, Hk⟩
    obtain rfl := harg2.eq_unread hf0
    sl_exec
    sl_step
    iapply Hk
    isplitl [H0]
    · iexists _; isplitr; · ipureintro; exact harg2.read_unread _
      iexact H0
    iexists _; isplitr; swap; · iexact H1
    ipureintro
    rw [View.writes_append]
    refine read_pb _ c none i arg2 harg2 arg3 harg3 x0 _ ?_ _
    unfold kernelRun.sl.H1_1
    exact read_fill _ _ zeros5 _ _

/-! ## The proof data -/

variable (m : (ℓ : Loc nD τ sig) → Buf (Elt F) ℓ) (ρ : Dev nD → PrngReg)

/-- The arrays as the region finds them; after the body at point `t` the input's buffer at its block and the output's at
    `outBlk` of that block; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlk (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outBlk (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- Each window's current staging memref at point `t`, as the pipeline passes it. -/
abbrev ms0_0 (t : Fin cfg0.N) : Memref sig .tc .vmem S1x1x32x256x256 .f32 := win0_0.stage (cfg0.slots t 0)
abbrev ms0_1 (t : Fin cfg0.N) : Memref sig .tc .vmem S1x1x32x256x256 .f32 := win0_1.stage (cfg0.slots t 1)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply ((kernelRun c (grid0.coords t) _ _ _ _ (iblk m c 0 t)) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates with every array of the pipeline at what the proof data says and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.IdealBody.lean ====
/-
  The kernel body of the 3x3x3 non-maxima suppression, run once: on a whole staging block `x0` of one (batch, channel)
  volume [1,1,32,256,256] the body first fills the output block with zeros and then, for the thirty interior depth planes
  z = 1 … 30 in turn, overwrites the 254 x 254 interior of plane z with the plane's payload (the centre value times the
  0/1 indicator that it is strictly greater than its 26 neighbours in planes z-1, z, z+1).  So the block it leaves is
  the zero block overlaid, plane after plane, by those thirty interior rectangles: `acc x0 n` after n planes,
  `outBlk x0 = acc x0 30` at the end.  The rectangles of different planes are disjoint, and the body never reads
  what it wrote, so each plane's payload is a function of the input block alone (`plane x0 k`).
  Everything here holds at any float instance.
-/
import proofs.«107580_j35021163332235_2_alg».proof.Proof.Gen.KernelIdeal.Loops
import proofs.«107580_j35021163332235_2_alg».proof.Proof.Gen.KernelIdeal.Frame
import proofs.«107580_j35021163332235_2_alg».proof.Proof.LibWritesOverlay

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WritesOverlay

variable {F : FTy → Type} [FloatOps F]

local notation "𝕄" => MT nD τ sig Unit (Elt F) ℕ (UR sig nD τ) ℕ

/-! ## One plane's payload and rectangle -/

/-- The interior of depth plane `k + 1`: rows and columns 1 … 254 of that plane. -/
abbrev planeRect (k : Fin k0_t1_loop.trips) : Rect S1x1x32x256x256 :=
  Rect.unit (s := S1x1x32x256x256) (k0_off4 k) S1x1x1x254x254.size (k0_off4_inb k)

/-- What trip `k` stores there: the body's arithmetic on the three planes `k`, `k + 1`, `k + 2` of the input block. -/
def plane (x0 : Vec F S1x1x32x256x256 .f32) (k : Fin k0_t1_loop.trips) : (planeRect k).shape.Idx → Elt F .f32 :=
  k0_pay7
    (k0_pay2 (View.ld x0 (Rect.unit (s := S1x1x32x256x256) (k0_off2 k) S1x1x1x256x256.size (k0_off2_inb k))))
    (k0_pay3 (View.ld x0 (Rect.unit (s := S1x1x32x256x256) (k0_off3 k) S1x1x1x256x256.size (k0_off3_inb k))))
    (k0_pay4 (View.ld x0 (Rect.unit (s := S1x1x32x256x256) (k0_off2 k) S1x1x1x256x256.size (k0_off2_inb k))))
    (k0_pay5 (View.ld x0 (Rect.unit (s := S1x1x32x256x256) (k0_off1 k) S1x1x1x256x256.size (k0_off1_inb k)))
      (View.ld x0 (Rect.unit (s := S1x1x32x256x256) (k0_off2 k) S1x1x1x256x256.size (k0_off2_inb k))))
    (k0_pay6 (View.ld x0 (Rect.unit (s := S1x1x32x256x256) (k0_off2 k) S1x1x1x256x256.size (k0_off2_inb k))))

/-- The block after the first `n` planes: zeros, overlaid by the interiors of planes 1 … n. -/
def acc (x0 : Vec F S1x1x32x256x256 .f32) : ℕ → Vec F S1x1x32x256x256 .f32
  | 0 => k0_pay1 (F := F)
  | n + 1 => if h : n < k0_t1_loop.trips then (planeRect ⟨n, h⟩).overlay (acc x0 n) (plane x0 ⟨n, h⟩) else acc x0 n

/-- The block the body leaves. -/
def outBlk (x0 : Vec F S1x1x32x256x256 .f32) : Vec F S1x1x32x256x256 .f32 :=
  acc x0 (Scf.trips k0_t1_loop.lb k0_t1_loop.ub k0_t1_loop.st)

/-! ## The loop's pieces are the planes -/

/-- Trip `k` stores exactly one piece, the plane's payload through the plane's rectangle, whatever the output held. -/
theorem tripL_eq (𝒱 : Variants) (c : Dev nD) (bd : Option 𝒱.V) (i : grid0.Coords) (arg2 : Memref sig .tc .vmem S1x1x32x256x256 .f32) (harg2 : arg2.IsWhole)
    (arg3 : Memref sig .tc .vmem S1x1x32x256x256 .f32) (harg3 : arg3.IsWhole) (x0 : Vec F S1x1x32x256x256 .f32) (k : Fin k0_t1_loop.trips)
    (f : BufTy.Contents (Elt F) arg3.view.ty) :
    tripL_k0_t1 (F := F) 𝒱 c bd i arg2 harg2 arg3 harg3 (harg2.unread x0) k f = [⟨planeRect k, plane x0 k⟩] := by
  unfold tripL_k0_t1 trip_k0_t1
  dsimp only
  unfold trip_k0_t1.sl.r trip_k0_t1.sl.r_1 trip_k0_t1.sl.r_2 trip_k0_t1.sl.r_3 trip_k0_t1.sl.r_4
  unfold plane
  simp only [View.readAt_eq_ld, harg2.read_unread]

/-- After `n` trips over a block that reads as zeros, the output reads as `acc x0 n`. -/
theorem read_pb (𝒱 : Variants) (c : Dev nD) (bd : Option 𝒱.V) (i : grid0.Coords) (arg2 : Memref sig .tc .vmem S1x1x32x256x256 .f32) (harg2 : arg2.IsWhole)
    (arg3 : Memref sig .tc .vmem S1x1x32x256x256 .f32) (harg3 : arg3.IsWhole) (x0 : Vec F S1x1x32x256x256 .f32)
    (G0 : BufTy.Contents (Elt F) arg3.view.ty) (hG0 : arg3.view.read (Elt F) G0 = k0_pay1 (F := F)) :
    ∀ n : ℕ, arg3.view.read (Elt F) (arg3.view.writes (Elt F) G0
        (pb_k0_t1 (F := F) 𝒱 c bd i arg2 harg2 arg3 harg3 (harg2.unread x0) G0 n)) = acc x0 n
  | 0 => by rw [pb_k0_t1.eq_1, View.writes_nil, hG0]; rfl
  | n + 1 => by
    rw [pb_k0_t1.eq_2]; unfold pb_k0_t1Step
    rw [acc.eq_2]
    by_cases h : n < k0_t1_loop.trips
    · rw [dif_pos h, dif_pos h, tripL_eq, List.singleton_append, read_writes_cons_overlay,
        read_pb 𝒱 c bd i arg2 harg2 arg3 harg3 x0 G0 hG0 n]
    · rw [dif_neg h, dif_neg h]; exact read_pb 𝒱 c bd i arg2 harg2 arg3 harg3 x0 G0 hG0 n

end Cert.KernelIdeal.Body

end
-- ==== Proof.IdealRun.lean ====
/-
  The frame of the program from its body: the proof data names what every grid point leaves — the input block in
  place, the output block at `outBlk` of the input block —, the body's triple runs the zero fill and the thirty planes
  (the loop by its invariant, each trip one piece), and the pipeline's launch theorem turns the body obligation into
  the run of @main: every output block after the run is what its point wrote back, the argument array unchanged.
-/
import proofs.«107580_j35021163332235_2_alg».proof.Proof.IdealBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WritesOverlay

variable {F : FTy → Type} [FloatOps F]

local notation "𝕄" => MT nD τ sig Unit (Elt F) ℕ (UR sig nD τ) ℕ

/-! ## The body's triple -/

theorem zeros5 : (![0, 0, 0, 0, 0] : Fin 5 → ℕ) = fun _ => 0 := by funext a; fin_cases a <;> rfl

set_option maxHeartbeats 1000000 in
/-- On whole staging memrefs, the input's at `x0` and the output's at anything, the body runs to the input's unchanged
    and the output's at `outBlk x0`. -/
theorem kernelRun (c : Dev nD) (i : grid0.Coords) (arg2 : Memref sig .tc .vmem S1x1x32x256x256 .f32) (harg2 : arg2.IsWhole) (arg3 : Memref sig .tc .vmem S1x1x32x256x256 .f32) (harg3 : arg3.IsWhole)
    (x0 : Vec F S1x1x32x256x256 .f32) :
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ owns (c : Thread nD τ) arg3 fullShare (outBlk x0)) -∗ K ⟨⟩))
          ⊢ wp frame (wpE (defs₀ (F := F)) Variants.none c none) E (cc0__nms_kernel i arg2 harg2 arg3 harg3) K := by
    intro E K
    simp only [cc0__nms_kernel_eq_skeleton]; unfold cc0__nms_kernel_skel
    unfold owns
    iintro ⟨⟨%f0, %hf0, H0⟩, ⟨%d1, %f1, -, H1⟩, Hk⟩
    obtain rfl := harg2.eq_unread hf0
    sl_exec
    sl_step
    iapply Hk
    isplitl [H0]
    · iexists _; isplitr; · ipureintro; exact harg2.read_unread _
      iexact H0
    iexists _; isplitr; swap; · iexact H1
    ipureintro
    rw [View.writes_append]
    refine read_pb _ c none i arg2 harg2 arg3 harg3 x0 _ ?_ _
    unfold kernelRun.sl.H1_1
    exact read_fill _ _ zeros5 _ _

/-! ## The proof data -/

variable (m : (ℓ : Loc nD τ sig) → Buf (Elt F) ℓ) (ρ : Dev nD → PrngReg)

/-- The arrays as the region finds them; after the body at point `t` the input's buffer at its block and the output's at
    `outBlk` of that block; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlk (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outBlk (iblk m c 0 t) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- Each window's current staging memref at point `t`, as the pipeline passes it. -/
abbrev ms0_0 (t : Fin cfg0.N) : Memref sig .tc .vmem S1x1x32x256x256 .f32 := win0_0.stage (cfg0.slots t 0)
abbrev ms0_1 (t : Fin cfg0.N) : Memref sig .tc .vmem S1x1x32x256x256 .f32 := win0_1.stage (cfg0.slots t 1)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply ((kernelRun c (grid0.coords t) _ _ _ _ (iblk m c 0 t)) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates with every array of the pipeline at what the proof data says and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.Spec.lean ====
/-
  The specification of 3x3x3 non-maxima suppression on a [4,4,32,256,256] array of extended reals, index by index:
  a voxel (b, ch, z, r, s) whose depth, row and column all lie strictly inside the volume (1 ≤ z ≤ 30, 1 ≤ r, s ≤ 254)
  keeps its value times the 0/1 indicator "strictly greater than each of its 26 neighbours in the 3x3x3 cube around
  it"; every other voxel is 0.  The indicator is the conjunction of the 26 strict comparisons, taken in the order
  depth offset, then row offset, then column offset (the centre left out); a conjunction of bits does not depend on
  that order, but both programs happen to take it in this one, so it is written once here.
  Arrays are read at NATURAL-number coordinates (wrapped into range, so that no bound proof sits inside a term):
  two readings agree as soon as their coordinates agree as numbers.
-/
import Idealize.ShloMosaic.PureOps.Ideal
import Idealize.ShloMosaic.Lib.ValueIdx

noncomputable section

namespace Cert.Nms

open Idealize.ShloMosaic Idealize.ShloMosaic.ValueIdx

/-- A natural number wrapped into `Fin n`. -/
def wrap (n : ℕ) (hn : 0 < n) (a : ℕ) : Fin n := ⟨a % n, Nat.mod_lt _ hn⟩

theorem wrap_of_lt {n : ℕ} (hn : 0 < n) {a : ℕ} (h : a < n) : wrap n hn a = ⟨a, h⟩ := Fin.ext (Nat.mod_eq_of_lt h)
theorem wrap_fin {n : ℕ} (hn : 0 < n) (a : Fin n) : wrap n hn a.val = a := Fin.ext (Nat.mod_eq_of_lt a.isLt)

abbrev SA : Shape := ⟨5, ![4, 4, 32, 256, 256]⟩
abbrev SB : Shape := ⟨5, ![1, 1, 32, 256, 256]⟩
abbrev SP : Shape := ⟨5, ![1, 1, 1, 256, 256]⟩

/-- The whole array read at natural coordinates. -/
def rdA {α : Type} (x : SA.Idx → α) (b ch z r s : ℕ) : α :=
  x (ix5 (wrap 4 (by decide) b) (wrap 4 (by decide) ch) (wrap 32 (by decide) z) (wrap 256 (by decide) r) (wrap 256 (by decide) s))

/-- One (batch, channel) volume read at natural coordinates. -/
def rdB {α : Type} (x : SB.Idx → α) (z r s : ℕ) : α :=
  x (ix5 (wrap 1 (by decide) 0) (wrap 1 (by decide) 0) (wrap 32 (by decide) z) (wrap 256 (by decide) r) (wrap 256 (by decide) s))

/-- One depth plane read at natural coordinates. -/
def rdP {α : Type} (x : SP.Idx → α) (r s : ℕ) : α :=
  x (ix5 (wrap 1 (by decide) 0) (wrap 1 (by decide) 0) (wrap 1 (by decide) 0) (wrap 256 (by decide) r) (wrap 256 (by decide) s))

theorem rdA_idx {α : Type} (x : SA.Idx → α) (j : SA.Idx) : x j = rdA x (j 0).val (j 1).val (j 2).val (j 3).val (j 4).val := by
  unfold rdA
  refine congrArg x (funext fun a => ?_)
  match a with
  | ⟨0, _⟩ => exact (wrap_fin _ (j 0)).symm
  | ⟨1, _⟩ => exact (wrap_fin _ (j 1)).symm
  | ⟨2, _⟩ => exact (wrap_fin _ (j 2)).symm
  | ⟨3, _⟩ => exact (wrap_fin _ (j 3)).symm
  | ⟨4, _⟩ => exact (wrap_fin _ (j 4)).symm

theorem rdB_idx {α : Type} (x : SB.Idx → α) (j : SB.Idx) : x j = rdB x (j 2).val (j 3).val (j 4).val := by
  unfold rdB
  refine congrArg x (funext fun a => ?_)
  match a with
  | ⟨0, _⟩ => exact Fin.ext (by have h : (j 0).val < 1 := (j 0).isLt; show (j 0).val = 0 % 1; omega)
  | ⟨1, _⟩ => exact Fin.ext (by have h : (j 1).val < 1 := (j 1).isLt; show (j 1).val = 0 % 1; omega)
  | ⟨2, _⟩ => exact (wrap_fin _ (j 2)).symm
  | ⟨3, _⟩ => exact (wrap_fin _ (j 3)).symm
  | ⟨4, _⟩ => exact (wrap_fin _ (j 4)).symm

theorem rdP_idx {α : Type} (x : SP.Idx → α) (j : SP.Idx) : x j = rdP x (j 3).val (j 4).val := by
  unfold rdP
  refine congrArg x (funext fun a => ?_)
  match a with
  | ⟨0, _⟩ => exact Fin.ext (by have h : (j 0).val < 1 := (j 0).isLt; show (j 0).val = 0 % 1; omega)
  | ⟨1, _⟩ => exact Fin.ext (by have h : (j 1).val < 1 := (j 1).isLt; show (j 1).val = 0 % 1; omega)
  | ⟨2, _⟩ => exact Fin.ext (by have h : (j 2).val < 1 := (j 2).isLt; show (j 2).val = 0 % 1; omega)
  | ⟨3, _⟩ => exact (wrap_fin _ (j 3)).symm
  | ⟨4, _⟩ => exact (wrap_fin _ (j 4)).symm

/-- The conjunction of the 26 strict comparisons of the centre `g 1 1 1` with its neighbours `g dz dy dx`. -/
def mask26 (g : ℕ → ℕ → ℕ → EReal) : BitVec 1 :=
  IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (IntOp.andi (1#1) (Ideal.cmp .ogt (g 1 1 1) (g 0 0 0))) (Ideal.cmp .ogt (g 1 1 1) (g 0 0 1))) (Ideal.cmp .ogt (g 1 1 1) (g 0 0 2))) (Ideal.cmp .ogt (g 1 1 1) (g 0 1 0))) (Ideal.cmp .ogt (g 1 1 1) (g 0 1 1))) (Ideal.cmp .ogt (g 1 1 1) (g 0 1 2))) (Ideal.cmp .ogt (g 1 1 1) (g 0 2 0))) (Ideal.cmp .ogt (g 1 1 1) (g 0 2 1))) (Ideal.cmp .ogt (g 1 1 1) (g 0 2 2))) (Ideal.cmp .ogt (g 1 1 1) (g 1 0 0))) (Ideal.cmp .ogt (g 1 1 1) (g 1 0 1))) (Ideal.cmp .ogt (g 1 1 1) (g 1 0 2))) (Ideal.cmp .ogt (g 1 1 1) (g 1 1 0))) (Ideal.cmp .ogt (g 1 1 1) (g 1 1 2))) (Ideal.cmp .ogt (g 1 1 1) (g 1 2 0))) (Ideal.cmp .ogt (g 1 1 1) (g 1 2 1))) (Ideal.cmp .ogt (g 1 1 1) (g 1 2 2))) (Ideal.cmp .ogt (g 1 1 1) (g 2 0 0))) (Ideal.cmp .ogt (g 1 1 1) (g 2 0 1))) (Ideal.cmp .ogt (g 1 1 1) (g 2 0 2))) (Ideal.cmp .ogt (g 1 1 1) (g 2 1 0))) (Ideal.cmp .ogt (g 1 1 1) (g 2 1 1))) (Ideal.cmp .ogt (g 1 1 1) (g 2 1 2))) (Ideal.cmp .ogt (g 1 1 1) (g 2 2 0))) (Ideal.cmp .ogt (g 1 1 1) (g 2 2 1))) (Ideal.cmp .ogt (g 1 1 1) (g 2 2 2))

/-- A bit as the extended real 0 or 1. -/
def toF (b : BitVec 1) : EReal := ((b.toNat : ℝ) : EReal)

/-- A bit zero-extended to 32 bits and read as a signed integer is the bit. -/
theorem toF_signed (b : BitVec 1) : ((((b.setWidth 32).toInt : ℤ) : ℝ) : EReal) = toF b := by
  have h : ∀ b : BitVec 1, (b.setWidth 32).toInt = (b.toNat : ℤ) := by decide
  unfold toF; rw [h b, Int.cast_natCast]

theorem toF_zero : toF 0#1 = 0 := by unfold toF; simp

/-- The centre times the indicator. -/
def core (g : ℕ → ℕ → ℕ → EReal) : EReal := g 1 1 1 * toF (mask26 g)

/-- Strictly inside the volume on the three spatial axes. -/
def Interior (z r s : ℕ) : Prop := (1 ≤ z ∧ z ≤ 30) ∧ (1 ≤ r ∧ r ≤ 254) ∧ (1 ≤ s ∧ s ≤ 254)

instance (z r s : ℕ) : Decidable (Interior z r s) := by unfold Interior; infer_instance

/-- Non-maxima suppression of the whole array. -/
def nms (x : SA.Idx → EReal) : SA.Idx → EReal := fun i =>
  if Interior (i 2).val (i 3).val (i 4).val then
    core (fun dz dy dx => rdA x (i 0).val (i 1).val ((i 2).val - 1 + dz) ((i 3).val - 1 + dy) ((i 4).val - 1 + dx))
  else 0

/-- Non-maxima suppression of one (batch, channel) volume. -/
def nmsB (x : SB.Idx → EReal) : SB.Idx → EReal := fun y =>
  if Interior (y 2).val (y 3).val (y 4).val then
    core (fun dz dy dx => rdB x ((y 2).val - 1 + dz) ((y 3).val - 1 + dy) ((y 4).val - 1 + dx))
  else 0

end Cert.Nms

end
-- ==== Proof.IdealPlane.lean ====
/-
  One plane's payload at an index, at the extended reals: the entry (r, s) of the 254 x 254 interior of depth plane
  k + 1 is the centre X(k+1, r+1, s+1) times the indicator that it is strictly greater than X(k+dz, r+dy, s+dx) for the
  26 offsets (dz, dy, dx) ≠ (1, 1, 1) in {0, 1, 2}³.  Each operand of a comparison is a 254 x 254 window, at row and
  column offsets 0, 1 or 2, of one of the three depth planes k, k+1, k+2 loaded from the block.
-/
import proofs.«107580_j35021163332235_2_alg».proof.Proof.IdealBody
import proofs.«107580_j35021163332235_2_alg».proof.Proof.Spec
import Idealize.ShloMosaic.Lib.Pipeline.Value
import Idealize.ShloMosaic.Lib.ValueIdx
import Idealize.ShloMosaic.Lib.ValueIdxCoords

set_option maxRecDepth 16384

noncomputable section

namespace Cert.KernelIdeal.Body

open Idealize.ShloMosaic Idealize.ShloMosaic.ValueIdx Idealize.SL.Sem
open Cert.KernelIdeal Cert.KernelIdeal.Gen Cert.Nms

/-- A window at offsets (o0, o1) of a depth plane, read at (r, s): the plane at (r + o0, s + o1). -/
theorem slice_plane {α : Type} (v : S1x1x1x256x256.Idx → α) (o0 o1 : ℕ) (hc : S1x1x1x256x256.ShapeCasts S256x256)
    (h : S256x256.Slices ![o0, o1] S254x254) (j : S254x254.Idx) :
    extractStridedSlice S254x254 ![o0, o1] (shapeCast S256x256 v hc) h j = rdP v ((j 0).val + o0) ((j 1).val + o1) := by
  have h0 : o0 + 254 ≤ 256 := h.2 0
  have h1 : o1 + 254 ≤ 256 := h.2 1
  have hj0 : (j 0).val < 254 := (j 0).isLt
  have hj1 : (j 1).val < 254 := (j 1).isLt
  rw [extractStridedSlice_apply ![o0, o1] _ h j (ix2 ⟨(j 0).val + o0, by omega⟩ ⟨(j 1).val + o1, by omega⟩)
    (fun a => match a with
      | ⟨0, _⟩ => by show (j 0).val + o0 = o0 + (j 0).val; omega
      | ⟨1, _⟩ => by show (j 1).val + o1 = o1 + (j 1).val; omega)]
  rw [shapeCast_apply v hc _ (ix5 ⟨0, by decide⟩ ⟨0, by decide⟩ ⟨0, by decide⟩ ⟨(j 0).val + o0, by omega⟩ ⟨(j 1).val + o1, by omega⟩)
    (by rw [Shape.rowMajor_val_five, Shape.rowMajor_val_two]
        show ((((0 * 1 + 0) * 1 + 0) * 256 + ((j 0).val + o0)) * 256 + ((j 1).val + o1)) = ((j 0).val + o0) * 256 + ((j 1).val + o1)
        omega)]
  exact rdP_idx v _

/-- Depth plane `z` loaded from the block, read at (r, s): the block at (z, r, s). -/
theorem rdP_ld (X : Vec Ideal S1x1x32x256x256 .f32) (off : Fin 5 → ℕ) (z : ℕ) (hoff : off = ![0, 0, z, 0, 0])
    (inb : ∀ a, off a + S1x1x1x256x256.size a ≤ S1x1x32x256x256.size a) (r s : ℕ) :
    rdP (View.ld (Val := Elt Ideal) (e' := .f32) X (Rect.unit (s := S1x1x32x256x256) off S1x1x1x256x256.size inb)) r s = rdB X z r s := by
  subst hoff
  have hz : z + 1 ≤ 32 := inb 2
  unfold rdP
  refine (rdB_idx X _).trans ?_
  unfold rdB
  refine congrArg X (funext fun a => ?_)
  match a with
  | ⟨0, _⟩ => rfl
  | ⟨1, _⟩ => rfl
  | ⟨2, _⟩ => exact Fin.ext (by show (z + 1 * (0 % 1)) % 32 = z % 32; omega)
  | ⟨3, _⟩ => exact Fin.ext (by show (0 + 1 * (r % 256)) % 256 = r % 256; omega)
  | ⟨4, _⟩ => exact Fin.ext (by show (0 + 1 * (s % 256)) % 256 = s % 256; omega)

theorem andi_apply {s : Shape} {w : ℕ} (a b : IVec s w) (i : s.Idx) : andi a b i = IntOp.andi (a i) (b i) := rfl

/-- The payload of trip `k` at the local index `j` of its rectangle. -/
theorem plane_apply (X : Vec Ideal S1x1x32x256x256 .f32) (k : Fin k0_t1_loop.trips) (j : (planeRect k).shape.Idx) :
    plane X k j = core (fun dz dy dx => rdB X (k.val + dz) ((j 3).val + dy) ((j 4).val + dx)) := by
  have hj0 : (j 0).val < 1 := (j 0).isLt
  have hj1 : (j 1).val < 1 := (j 1).isLt
  have hj2 : (j 2).val < 1 := (j 2).isLt
  have hj3 : (j 3).val < 254 := (j 3).isLt
  have hj4 : (j 4).val < 254 := (j 4).isLt
  unfold plane k0_pay7
  dsimp only
  rw [shapeCast_apply _ shapeCasts_S254x254_S1x1x1x254x254 j (ix2 ⟨(j 3).val, hj3⟩ ⟨(j 4).val, hj4⟩)
    (by rw [Shape.rowMajor_val_five, Shape.rowMajor_val_two]
        show (j 3).val * 254 + (j 4).val = ((((j 0).val * 1 + (j 1).val) * 1 + (j 2).val) * 254 + (j 3).val) * 254 + (j 4).val
        omega)]
  unfold k0_pay6 k0_pay5 k0_pay4 k0_pay3 k0_pay2
  simp only [mulf_apply, sitofp_apply, extui_apply, andi_apply, cmpf_apply, broadcast_apply, slice_plane,
    rdP_ld X (k0_off1 k) k.val (k0_off1_eq k), rdP_ld X (k0_off2 k) (k.val + 1) (k0_off2_eq k),
    rdP_ld X (k0_off3 k) (k.val + 2) (k0_off3_eq k), ix2_0, ix2_1]
  rw [show ∀ b : BitVec 32, FloatOps.sitofp (F := Ideal) FTy.f32 b = (((b.toInt : ℤ) : ℝ) : EReal) from fun _ => rfl, toF_signed]
  unfold core mask26
  simp only [Nat.add_zero]
  rfl

end Cert.KernelIdeal.Body

end
-- ==== Proof.IdealBlock.lean ====
/-
  The block the body leaves, index by index, at the extended reals: it is the non-maxima suppression of the one
  (batch, channel) volume.  By induction on the number of planes written: after n planes an index (z, r, s) with
  1 ≤ z ≤ n and 1 ≤ r, s ≤ 254 holds plane z's payload there — the rectangles of different planes share no index,
  so a later plane never touches it — and every other index still holds the zero of the initial fill.
-/
import proofs.«107580_j35021163332235_2_alg».proof.Proof.IdealPlane
import Idealize.ShloMosaic.PureOps.Ideal.Laws

set_option maxRecDepth 16384

noncomputable section

namespace Cert.KernelIdeal.Body

open Idealize.ShloMosaic Idealize.ShloMosaic.ValueIdx Idealize.SL.Sem
open Cert.KernelIdeal Cert.KernelIdeal.Gen Cert.Nms

theorem trips_eq : k0_t1_loop.trips = 30 := by decide

/-- The initial fill is zero everywhere. -/
theorem fill_apply (y : S1x1x32x256x256.Idx) : k0_pay1 (F := Ideal) y = 0 := by
  show Scalar.ofBits (F := Ideal) .f32 0x00000000#32 = 0
  exact Ideal.ofBits_zero_f32

/-- An index is in plane `k + 1`'s interior rectangle exactly when its depth is k + 1 and its row and column are
    in 1 … 254. -/
theorem mem_planeRect (k : Fin k0_t1_loop.trips) (y : S1x1x32x256x256.Idx) :
    y ∈ (planeRect k).set ↔ (y 2).val = k.val + 1 ∧ (1 ≤ (y 3).val ∧ (y 3).val ≤ 254) ∧ (1 ≤ (y 4).val ∧ (y 4).val ≤ 254) := by
  have h0 : (y 0).val < 1 := (y 0).isLt
  have h1 : (y 1).val < 1 := (y 1).isLt
  rw [Rect.mem_set_unit, k0_off4_eq]
  constructor
  · intro h
    have a2 : k.val + 1 ≤ (y 2).val ∧ (y 2).val < k.val + 1 + 1 := h 2
    have a3 : 1 ≤ (y 3).val ∧ (y 3).val < 1 + 254 := h 3
    have a4 : 1 ≤ (y 4).val ∧ (y 4).val < 1 + 254 := h 4
    omega
  · intro h a
    match a with
    | ⟨0, _⟩ => show 0 ≤ (y 0).val ∧ (y 0).val < 0 + 1; omega
    | ⟨1, _⟩ => show 0 ≤ (y 1).val ∧ (y 1).val < 0 + 1; omega
    | ⟨2, _⟩ => show k.val + 1 ≤ (y 2).val ∧ (y 2).val < k.val + 1 + 1; omega
    | ⟨3, _⟩ => show 1 ≤ (y 3).val ∧ (y 3).val < 1 + 254; omega
    | ⟨4, _⟩ => show 1 ≤ (y 4).val ∧ (y 4).val < 1 + 254; omega

theorem rdB_congr (X : SB.Idx → EReal) {a a' b b' c c' : ℕ} (ha : a = a') (hb : b = b') (hc : c = c') :
    rdB X a b c = rdB X a' b' c' := by subst ha hb hc; rfl

/-- After `n` planes. -/
theorem acc_apply (X : Vec Ideal S1x1x32x256x256 .f32) : ∀ n : ℕ, n ≤ 30 → ∀ y : S1x1x32x256x256.Idx,
    acc X n y = if (1 ≤ (y 2).val ∧ (y 2).val ≤ n) ∧ (1 ≤ (y 3).val ∧ (y 3).val ≤ 254) ∧ (1 ≤ (y 4).val ∧ (y 4).val ≤ 254) then
        core (fun dz dy dx => rdB X ((y 2).val - 1 + dz) ((y 3).val - 1 + dy) ((y 4).val - 1 + dx))
      else 0
  | 0, _, y => by
    rw [acc.eq_1, fill_apply, if_neg (by omega)]
  | n + 1, hn, y => by
    have h : n < k0_t1_loop.trips := by rw [trips_eq]; omega
    rw [acc.eq_2, dif_pos h]
    by_cases hy : y ∈ (planeRect ⟨n, h⟩).set
    · have hm := (mem_planeRect ⟨n, h⟩ y).mp hy
      obtain ⟨x, rfl⟩ : ∃ x, (planeRect ⟨n, h⟩).emb x = y := (planeRect ⟨n, h⟩).exists_idx_of_mem hy
      have e2 : (((planeRect ⟨n, h⟩).emb x) 2).val = n + 1 := hm.1
      rw [Rect.overlay_emb, plane_apply, if_pos ⟨⟨by omega, by omega⟩, hm.2⟩]
      have e3 : (((planeRect ⟨n, h⟩).emb x) 3).val = 1 + (x 3).val := by
        show k0_off4 ⟨n, h⟩ 3 + 1 * (x 3).val = _
        rw [k0_off4_eq]; show 1 + 1 * (x 3).val = _; omega
      have e4 : (((planeRect ⟨n, h⟩).emb x) 4).val = 1 + (x 4).val := by
        show k0_off4 ⟨n, h⟩ 4 + 1 * (x 4).val = _
        rw [k0_off4_eq]; show 1 + 1 * (x 4).val = _; omega
      refine congrArg core (funext fun dz => funext fun dy => funext fun dx => rdB_congr X ?_ ?_ ?_)
      · show n + dz = _; rw [e2]; omega
      · rw [e3]; omega
      · rw [e4]; omega
    · rw [Rect.overlay_of_not_mem _ _ _ hy, acc_apply X n (by omega) y]
      have hm := (mem_planeRect ⟨n, h⟩ y).not.mp hy
      refine if_congr ?_ rfl rfl
      constructor
      · intro hc; exact ⟨⟨hc.1.1, by omega⟩, hc.2⟩
      · intro hc
        refine ⟨⟨hc.1.1, ?_⟩, hc.2⟩
        by_contra hlt
        exact hm ⟨by show (y 2).val = n + 1; omega, hc.2⟩

/-- The block the body leaves is the suppression of the volume. -/
theorem outBlk_eq (X : Vec Ideal S1x1x32x256x256 .f32) : outBlk X = nmsB X := by
  funext y
  unfold outBlk nmsB Interior
  rw [show Scf.trips k0_t1_loop.lb k0_t1_loop.ub k0_t1_loop.st = 30 from trips_eq]
  exact acc_apply X 30 (le_refl _) y

end Cert.KernelIdeal.Body

end
-- ==== Proof.IdealFinal.lean ====
/-
  From blocks to the array.  Grid point t = (b, ch) stages the (b, ch) volume of the argument as its input block and
  writes its output block back to the (b, ch) volume of the result; the sixteen volumes tile the array.  A block's
  suppression read at (z, r, s) only looks at the same volume of the array, so what point t writes back is block t of
  the suppression of the whole array, and the result array after the run is that suppression.
-/
import proofs.«107580_j35021163332235_2_alg».proof.Proof.IdealRun
import proofs.«107580_j35021163332235_2_alg».proof.Proof.IdealBlock

set_option maxRecDepth 16384

noncomputable section

namespace Cert.KernelIdeal.Body

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen Cert.Nms

variable (m : (ℓ : Loc nD τ sig) → Buf (Elt Ideal) ℓ) (ρ : Dev nD → PrngReg)

/-- The printed index maps, decided over the grid: both windows sit at block (b, ch, 0, 0, 0) of their arrays. -/
theorem idx_facts : ∀ t : Fin cfg0.N, win0_0.index t (0 : Fin 5) = win0_1.index t (0 : Fin 5)
    ∧ win0_0.index t (1 : Fin 5) = win0_1.index t (1 : Fin 5)
    ∧ win0_0.index t (2 : Fin 5) = 0 ∧ win0_0.index t (3 : Fin 5) = 0 ∧ win0_0.index t (4 : Fin 5) = 0
    ∧ win0_1.index t (2 : Fin 5) = 0 ∧ win0_1.index t (3 : Fin 5) = 0 ∧ win0_1.index t (4 : Fin 5) = 0
    ∧ win0_1.index t (0 : Fin 5) ≤ 3 ∧ win0_1.index t (1 : Fin 5) ≤ 3 :=
  (by decide +kernel : ∀ t : Fin grid0.N, _)

/-- Every (b, ch) is some point's block. -/
theorem idx_onto : ∀ (q0 : Fin 4) (q1 : Fin 4), ∃ t : Fin cfg0.N, win0_1.index t = ![q0.val, q1.val, 0, 0, 0] :=
  (by decide +kernel : ∀ (q0 : Fin 4) (q1 : Fin 4), ∃ t : Fin grid0.N, win0_1.index t = ![q0.val, q1.val, 0, 0, 0])

theorem rdA_congr_mod (x : SA.Idx → EReal) {a a' b b' c c' d d' e e' : ℕ} (ha : a % 4 = a' % 4) (hb : b % 4 = b' % 4)
    (hc : c % 32 = c' % 32) (hd : d % 256 = d' % 256) (he : e % 256 = e' % 256) :
    rdA x a b c d e = rdA x a' b' c' d' e' := by
  unfold rdA
  refine congrArg x (funext fun k => ?_)
  match k with
  | ⟨0, _⟩ => exact Fin.ext ha
  | ⟨1, _⟩ => exact Fin.ext hb
  | ⟨2, _⟩ => exact Fin.ext hc
  | ⟨3, _⟩ => exact Fin.ext hd
  | ⟨4, _⟩ => exact Fin.ext he

/-- The input block of point `t`, read at (z, r, s), is the array read in the point's volume. -/
theorem blk_read (c : Dev nD) (t : Fin cfg0.N) (z r s : ℕ) :
    rdB (iblk m c 0 t) z r s = rdA (V m c main_arg0) (win0_1.index t (0 : Fin 5)) (win0_1.index t (1 : Fin 5)) z r s := by
  obtain ⟨e0, e1, e2, e3, e4, -, -, -, b0, b1⟩ := idx_facts t
  unfold rdB
  show V m c main_arg0 (((cfg0.win 0).blk t).view.emb _) = _
  refine (rdA_idx _ _).trans (rdA_congr_mod _ ?_ ?_ ?_ ?_ ?_)
  · show (win0_0.index t (0 : Fin 5) * 1 + 1 * (0 % 1)) % 4 = _; omega
  · show (win0_0.index t (1 : Fin 5) * 1 + 1 * (0 % 1)) % 4 = _; omega
  · show (win0_0.index t (2 : Fin 5) * 32 + 1 * (z % 32)) % 32 = _; omega
  · show (win0_0.index t (3 : Fin 5) * 256 + 1 * (r % 256)) % 256 = _; omega
  · show (win0_0.index t (4 : Fin 5) * 256 + 1 * (s % 256)) % 256 = _; omega

/-- What point `t` writes back is block `t` of the suppression of the argument array. -/
theorem flushed_eq (c : Dev nD) (t : Fin cfg0.N) :
    (dats m 0 c).flushed 1 t = ((cfg0.win 1).blk t).view.read (Elt Ideal) (nms (V m c main_arg0)) := by
  show (cfg0.win 1).cut (grid0.coords t) ((dats m 0 c).after 1 t) = _
  rw [after0_1, outBlk_eq]
  obtain ⟨-, -, -, -, -, e2, e3, e4, b0, b1⟩ := idx_facts t
  funext y
  show nmsB (iblk m c 0 t) y = nms (V m c main_arg0) (((cfg0.win 1).blk t).view.emb y)
  have h0 : (y 0).val < 1 := (y 0).isLt
  have h1 : (y 1).val < 1 := (y 1).isLt
  have E0 : ((((cfg0.win 1).blk t).view.emb y) 0).val = win0_1.index t (0 : Fin 5) := by
    show win0_1.index t (0 : Fin 5) * 1 + 1 * (y 0).val = _; omega
  have E1 : ((((cfg0.win 1).blk t).view.emb y) 1).val = win0_1.index t (1 : Fin 5) := by
    show win0_1.index t (1 : Fin 5) * 1 + 1 * (y 1).val = _; omega
  have E2 : ((((cfg0.win 1).blk t).view.emb y) 2).val = (y 2).val := by
    show win0_1.index t (2 : Fin 5) * 32 + 1 * (y 2).val = _; omega
  have E3 : ((((cfg0.win 1).blk t).view.emb y) 3).val = (y 3).val := by
    show win0_1.index t (3 : Fin 5) * 256 + 1 * (y 3).val = _; omega
  have E4 : ((((cfg0.win 1).blk t).view.emb y) 4).val = (y 4).val := by
    show win0_1.index t (4 : Fin 5) * 256 + 1 * (y 4).val = _; omega
  unfold nmsB nms
  rw [E0, E1, E2, E3, E4]
  refine if_congr Iff.rfl ?_ rfl
  exact congrArg core (funext fun dz => funext fun dy => funext fun dx => blk_read m c t _ _ _)

/-- An index of the array is in point `t`'s block iff each coordinate is in the block's range on its axis. -/
theorem mem_blk (t : Fin cfg0.N) (i : S4x4x32x256x256.Idx) :
    i ∈ ((cfg0.win 1).blk t).view.set ↔ ∀ a : Fin 5, win0_1.index t a * S1x1x32x256x256.size a ≤ (i a).val
      ∧ (i a).val < win0_1.index t a * S1x1x32x256x256.size a + S1x1x32x256x256.size a := by
  show i ∈ ((View.whole main_v0).slice (win0_1.rect t)).set ↔ _
  rw [View.set_slice_whole, Rect.mem_set_unit]
  exact Iff.rfl

/-- The blocks cover the array. -/
theorem cover (i : S4x4x32x256x256.Idx) : ∃ t : Fin cfg0.N, (cfg0.win 1).flush t = true ∧ i ∈ ((cfg0.win 1).blk t).view.set := by
  have hi0 : (i 0).val < 4 := (i 0).isLt
  have hi1 : (i 1).val < 4 := (i 1).isLt
  have hi2 : (i 2).val < 32 := (i 2).isLt
  have hi3 : (i 3).val < 256 := (i 3).isLt
  have hi4 : (i 4).val < 256 := (i 4).isLt
  obtain ⟨t, ht⟩ := idx_onto ⟨(i 0).val, hi0⟩ ⟨(i 1).val, hi1⟩
  have q0 : win0_1.index t (0 : Fin 5) = (i 0).val := congrFun ht 0
  have q1 : win0_1.index t (1 : Fin 5) = (i 1).val := congrFun ht 1
  have q2 : win0_1.index t (2 : Fin 5) = 0 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 32 ≤ (i 2).val ∧ (i 2).val < win0_1.index t (2 : Fin 5) * 32 + 32; omega
  | ⟨3, _⟩ => show win0_1.index t (3 : Fin 5) * 256 ≤ (i 3).val ∧ (i 3).val < win0_1.index t (3 : Fin 5) * 256 + 256; omega
  | ⟨4, _⟩ => show win0_1.index t (4 : Fin 5) * 256 ≤ (i 4).val ∧ (i 4).val < win0_1.index t (4 : Fin 5) * 256 + 256; omega

/-- The result array after the run. -/
theorem final (c : Dev nD) : (dats m 0 c).arrAt 1 cfg0.N = nms (m ((c : Thread nD τ).loc main_arg0)) :=
  (dats m 0 c).arrAt_eq_of_cover 1 (nms (V m c main_arg0)) (fun t _ => flushed_eq m c t) cover

/-- The run, read: the result array is the suppression of the argument array, which is unchanged. -/
theorem run : θ_run defs (onTc (τ := τ) (main (F := Ideal))) ⟨m, fun _ => 0, ρ⟩ fun r => ∀ c : Dev nD,
      r.2.mem ((c : Thread nD τ).loc main_v0) = nms (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Body

end
-- ==== Proof.LibScatterSet.lean ====
/-
  A scatter read at an index. `Host.scatter` is a left fold of overwriting steps over the update's positions: each step
  replaces the element at the position's target, when it has one. When exactly one position of the list lands on an index,
  the result there is the body applied to the operand's element and that position's update; when none does, it is the
  operand's element. Both by induction on the list. Also: the target of an update index is
  `some i` exactly when start plus window coordinate is `i`'s coordinate on every axis.
-/
import Idealize.ShloMosaic.PureOps.ShapeOps
import Idealize.ShloMosaic.Lib.ValueIdx

namespace Cert.ScatterSet

open Idealize.ShloMosaic

section Fold

variable {ι α N : Type} [DecidableEq ι]

/-- One overwriting step: position `n` replaces the element at its target `tgt n` (when it has one) by the body `f` of the
    element there and the position's value. -/
def step (f : α → α → α) (tgt : N → Option ι) (val : N → α) (r : ι → α) (n : N) : ι → α :=
  match tgt n with
  | some i => fun i' => if i' = i then f (r i) (val n) else r i'
  | none => r

/-- A step whose target is not `i` leaves the element at `i`. -/
theorem step_of_ne (f : α → α → α) (tgt : N → Option ι) (val : N → α) (r : ι → α) (n : N) (i : ι)
    (h : tgt n ≠ some i) : step f tgt val r n i = r i := by
  unfold step
  revert h
  generalize tgt n = o
  intro h
  cases o with
  | none => rfl
  | some i0 =>
    have hne : i ≠ i0 := fun e => h (by rw [e])
    exact if_neg hne

/-- A step whose target is `i` writes the body's value at `i`. -/
theorem step_of_eq (f : α → α → α) (tgt : N → Option ι) (val : N → α) (r : ι → α) (n : N) (i : ι)
    (h : tgt n = some i) : step f tgt val r n i = f (r i) (val n) := by
  unfold step
  rw [h]
  exact if_pos rfl

/-- No position of the list lands on `i`: the fold leaves the element at `i`. -/
theorem foldl_miss (f : α → α → α) (tgt : N → Option ι) (val : N → α) (l : List N) (x : ι → α) (i : ι)
    (h : ∀ n ∈ l, tgt n ≠ some i) : l.foldl (step f tgt val) x i = x i := by
  induction l generalizing x with
  | nil => rfl
  | cons a l ih =>
    rw [List.foldl_cons, ih _ (fun n hn => h n (List.mem_cons_of_mem _ hn)),
      step_of_ne f tgt val x a i (h a (List.mem_cons_self ..))]

/-- Exactly one position `n` of a list without repeats lands on `i`: the fold's element at `i` is the body of the start
    element and `n`'s value. -/
theorem foldl_hit (f : α → α → α) (tgt : N → Option ι) (val : N → α) (l : List N) (hl : l.Nodup) (x : ι → α) (i : ι)
    (n : N) (hn : n ∈ l) (ht : tgt n = some i) (huniq : ∀ n' ∈ l, tgt n' = some i → n' = n) :
    l.foldl (step f tgt val) x i = f (x i) (val n) := by
  induction l generalizing x with
  | nil => cases hn
  | cons a l ih =>
    rw [List.foldl_cons]
    have hnd := List.nodup_cons.1 hl
    rcases List.mem_cons.1 hn with e | hn'
    · subst e
      rw [foldl_miss f tgt val l _ i, step_of_eq f tgt val x n i ht]
      intro n' hn' ht'
      have e := huniq n' (List.mem_cons_of_mem _ hn') ht'
      exact hnd.1 (e ▸ hn')
    · have ha : tgt a ≠ some i := fun ht' => by
        have e := huniq a (List.mem_cons_self ..) ht'
        exact hnd.1 (e ▸ hn')
      rw [ih hnd.2 _ hn' (fun n' h' => huniq n' (List.mem_cons_of_mem _ h')), step_of_ne f tgt val x a i ha]

end Fold

section Scatter

variable {α : Type} {s si u : Shape} {w : Nat}

/-- `Host.scatter` is the fold of `step` over the update's row-major positions. -/
theorem scatter_eq_foldl (d : ScatterDims s si u) (f : α → α → α) (x : s.Idx → α) (idx : IVec si w) (upd : u.Idx → α) :
    Host.scatter d f x idx upd
      = (List.finRange u.numel).foldl
          (step f (fun n => d.resultIdx? (u.rowMajor.symm n) idx) (fun n => upd (u.rowMajor.symm n))) x := by
  unfold Host.scatter
  congr 1
  funext r n
  unfold step
  dsimp only
  generalize d.resultIdx? (u.rowMajor.symm n) idx = o
  cases o <;> rfl

/-- No update index lands on `i`: the scatter leaves the operand's element. -/
theorem scatter_miss (d : ScatterDims s si u) (f : α → α → α) (x : s.Idx → α) (idx : IVec si w) (upd : u.Idx → α) (i : s.Idx)
    (h : ∀ j, d.resultIdx? j idx ≠ some i) : Host.scatter d f x idx upd i = x i := by
  rw [scatter_eq_foldl]
  exact foldl_miss _ _ _ _ _ _ (fun n _ => h _)

/-- Exactly one update index `j` lands on `i`: the scatter's element there is the body of the operand's element and the
    update's at `j`. -/
theorem scatter_hit (d : ScatterDims s si u) (f : α → α → α) (x : s.Idx → α) (idx : IVec si w) (upd : u.Idx → α) (i : s.Idx)
    (j : u.Idx) (hj : d.resultIdx? j idx = some i) (huniq : ∀ j', d.resultIdx? j' idx = some i → j' = j) :
    Host.scatter d f x idx upd i = f (x i) (upd j) := by
  rw [scatter_eq_foldl]
  have h := foldl_hit f (fun n => d.resultIdx? (u.rowMajor.symm n) idx) (fun n => upd (u.rowMajor.symm n))
    (List.finRange u.numel) (List.nodup_finRange _) x i (u.rowMajor j) (List.mem_finRange _)
    (by show d.resultIdx? (u.rowMajor.symm (u.rowMajor j)) idx = some i
        rw [Equiv.symm_apply_apply]; exact hj)
    (fun n' _ h' => by
      have e := huniq _ h'
      rw [← e, Equiv.apply_symm_apply])
  rw [h]
  show f (x i) (upd (u.rowMajor.symm (u.rowMajor j))) = _
  rw [Equiv.symm_apply_apply]

/-- The target of update index `j` is `some i` exactly when, on every operand axis, the start plus the window coordinate
    is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := Option.some.inj e
      rw [← e']
      show _ = (((d.start j idx a + (d.window j a : Int)).toNat : Nat) : Int)
      have := h a
      omega
    · intro e
      congr 1
      funext a
      apply Fin.ext
      show (d.start j idx a + (d.window j a : Int)).toNat = (i a).val
      have := e a
      omega
  · next h =>
    constructor
    · intro e; cases e
    · intro e
      exact absurd (fun a => by
        have := e a
        have := (i a).isLt
        constructor <;> omega) h

end Scatter

end Cert.ScatterSet
-- ==== Proof.RefMask.lean ====
/-
  The reference at the extended reals, index by index, is the non-maxima suppression of its argument.
  Its inner mask over [4,4,30,254,254] is the conjunction of the 26 strict comparisons of the centre slice with the
  26 shifted slices; the mask is placed at offset (1, 1, 1) of a false [4,4,32,256,256] array by a scatter that sets
  (each update index lands on its own target, so a covered index reads its one update and an uncovered one reads
  false); converted to 0/1 and multiplied with the argument this keeps the interior maxima and zeroes the rest —
  a product with 0 is 0 on the extended reals whatever the other factor.
-/
import proofs.«107580_j35021163332235_2_alg».proof.Proof.Gen.ReferenceIdeal.Read
import proofs.«107580_j35021163332235_2_alg».proof.Proof.Spec
import proofs.«107580_j35021163332235_2_alg».proof.Proof.LibScatterSet
import Idealize.ShloMosaic.Lib.Pipeline.Value

set_option maxRecDepth 16384

noncomputable section

namespace Cert.ReferenceIdeal.RefValue

open Idealize.ShloMosaic Idealize.ShloMosaic.ValueIdx Idealize.SL.Sem
open Cert.ReferenceIdeal Cert.ReferenceIdeal.Gen Cert.ReferenceIdeal.Read Cert.Nms Cert.ScatterSet

theorem rdA_congr {α : Type} (x : SA.Idx → α) {a a' b b' c c' d d' e e' : ℕ} (ha : a = a') (hb : b = b') (hc : c = c') (hd : d = d')
    (he : e = e') : rdA x a b c d e = rdA x a' b' c' d' e' := by subst ha hb hc hd he; rfl

/-! ## The 27 slices read at an index -/

theorem sl0 (x : (⟨S4x4x32x256x256, .f32⟩ : BufTy).Contents (Elt Ideal)) (i : S4x4x30x254x254.Idx) :
    val_main_v0 (F := Ideal) x i = rdA x (i 0).val (i 1).val ((i 2).val + 1) ((i 3).val + 1) ((i 4).val + 1) :=
  (val_main_v0_apply x i).trans ((rdA_idx x _).trans (rdA_congr x rfl rfl (Nat.add_comm 1 (i 2).val) (Nat.add_comm 1 (i 3).val) (Nat.add_comm 1 (i 4).val)))
theorem sl2 (x : (⟨S4x4x32x256x256, .f32⟩ : BufTy).Contents (Elt Ideal)) (i : S4x4x30x254x254.Idx) :
    val_main_v2 (F := Ideal) x i = rdA x (i 0).val (i 1).val ((i 2).val + 0) ((i 3).val + 0) ((i 4).val + 0) :=
  (val_main_v2_apply x i).trans ((rdA_idx x _).trans (rdA_congr x rfl rfl (Nat.add_zero (i 2).val).symm (Nat.add_zero (i 3).val).symm (Nat.add_zero (i 4).val).symm))
theorem sl5 (x : (⟨S4x4x32x256x256, .f32⟩ : BufTy).Contents (Elt Ideal)) (i : S4x4x30x254x254.Idx) :
    val_main_v5 (F := Ideal) x i = rdA x (i 0).val (i 1).val ((i 2).val + 0) ((i 3).val + 0) ((i 4).val + 1) :=
  (val_main_v5_apply x i).trans ((rdA_idx x _).trans (rdA_congr x rfl rfl (Nat.add_zero (i 2).val).symm (Nat.add_zero (i 3).val).symm (Nat.add_comm 1 (i 4).val)))
theorem sl8 (x : (⟨S4x4x32x256x256, .f32⟩ : BufTy).Contents (Elt Ideal)) (i : S4x4x30x254x254.Idx) :
    val_main_v8 (F := Ideal) x i = rdA x (i 0).val (i 1).val ((i 2).val + 0) ((i 3).val + 0) ((i 4).val + 2) :=
  (val_main_v8_apply x i).trans ((rdA_idx x _).trans (rdA_congr x rfl rfl (Nat.add_zero (i 2).val).symm (Nat.add_zero (i 3).val).symm (Nat.add_comm 2 (i 4).val)))
theorem sl11 (x : (⟨S4x4x32x256x256, .f32⟩ : BufTy).Contents (Elt Ideal)) (i : S4x4x30x254x254.Idx) :
    val_main_v11 (F := Ideal) x i = rdA x (i 0).val (i 1).val ((i 2).val + 0) ((i 3).val + 1) ((i 4).val + 0) :=
  (val_main_v11_apply x i).trans ((rdA_idx x _).trans (rdA_congr x rfl rfl (Nat.add_zero (i 2).val).symm (Nat.add_comm 1 (i 3).val) (Nat.add_zero (i 4).val).symm))
theorem sl14 (x : (⟨S4x4x32x256x256, .f32⟩ : BufTy).Contents (Elt Ideal)) (i : S4x4x30x254x254.Idx) :
    val_main_v14 (F := Ideal) x i = rdA x (i 0).val (i 1).val ((i 2).val + 0) ((i 3).val + 1) ((i 4).val + 1) :=
  (val_main_v14_apply x i).trans ((rdA_idx x _).trans (rdA_congr x rfl rfl (Nat.add_zero (i 2).val).symm (Nat.add_comm 1 (i 3).val) (Nat.add_comm 1 (i 4).val)))
theorem sl17 (x : (⟨S4x4x32x256x256, .f32⟩ : BufTy).Contents (Elt Ideal)) (i : S4x4x30x254x254.Idx) :
    val_main_v17 (F := Ideal) x i = rdA x (i 0).val (i 1).val ((i 2).val + 0) ((i 3).val + 1) ((i 4).val + 2) :=
  (val_main_v17_apply x i).trans ((rdA_idx x _).trans (rdA_congr x rfl rfl (Nat.add_zero (i 2).val).symm (Nat.add_comm 1 (i 3).val) (Nat.add_comm 2 (i 4).val)))
theorem sl20 (x : (⟨S4x4x32x256x256, .f32⟩ : BufTy).Contents (Elt Ideal)) (i : S4x4x30x254x254.Idx) :
    val_main_v20 (F := Ideal) x i = rdA x (i 0).val (i 1).val ((i 2).val + 0) ((i 3).val + 2) ((i 4).val + 0) :=
  (val_main_v20_apply x i).trans ((rdA_idx x _).trans (rdA_congr x rfl rfl (Nat.add_zero (i 2).val).symm (Nat.add_comm 2 (i 3).val) (Nat.add_zero (i 4).val).symm))
theorem sl23 (x : (⟨S4x4x32x256x256, .f32⟩ : BufTy).Contents (Elt Ideal)) (i : S4x4x30x254x254.Idx) :
    val_main_v23 (F := Ideal) x i = rdA x (i 0).val (i 1).val ((i 2).val + 0) ((i 3).val + 2) ((i 4).val + 1) :=
  (val_main_v23_apply x i).trans ((rdA_idx x _).trans (rdA_congr x rfl rfl (Nat.add_zero (i 2).val).symm (Nat.add_comm 2 (i 3).val) (Nat.add_comm 1 (i 4).val)))
theorem sl26 (x : (⟨S4x4x32x256x256, .f32⟩ : BufTy).Contents (Elt Ideal)) (i : S4x4x30x254x254.Idx) :
    val_main_v26 (F := Ideal) x i = rdA x (i 0).val (i 1).val ((i 2).val + 0) ((i 3).val + 2) ((i 4).val + 2) :=
  (val_main_v26_apply x i).trans ((rdA_idx x _).trans (rdA_congr x rfl rfl (Nat.add_zero (i 2).val).symm (Nat.add_comm 2 (i 3).val) (Nat.add_comm 2 (i 4).val)))
theorem sl29 (x : (⟨S4x4x32x256x256, .f32⟩ : BufTy).Contents (Elt Ideal)) (i : S4x4x30x254x254.Idx) :
    val_main_v29 (F := Ideal) x i = rdA x (i 0).val (i 1).val ((i 2).val + 1) ((i 3).val + 0) ((i 4).val + 0) :=
  (val_main_v29_apply x i).trans ((rdA_idx x _).trans (rdA_congr x rfl rfl (Nat.add_comm 1 (i 2).val) (Nat.add_zero (i 3).val).symm (Nat.add_zero (i 4).val).symm))
theorem sl32 (x : (⟨S4x4x32x256x256, .f32⟩ : BufTy).Contents (Elt Ideal)) (i : S4x4x30x254x254.Idx) :
    val_main_v32 (F := Ideal) x i = rdA x (i 0).val (i 1).val ((i 2).val + 1) ((i 3).val + 0) ((i 4).val + 1) :=
  (val_main_v32_apply x i).trans ((rdA_idx x _).trans (rdA_congr x rfl rfl (Nat.add_comm 1 (i 2).val) (Nat.add_zero (i 3).val).symm (Nat.add_comm 1 (i 4).val)))
theorem sl35 (x : (⟨S4x4x32x256x256, .f32⟩ : BufTy).Contents (Elt Ideal)) (i : S4x4x30x254x254.Idx) :
    val_main_v35 (F := Ideal) x i = rdA x (i 0).val (i 1).val ((i 2).val + 1) ((i 3).val + 0) ((i 4).val + 2) :=
  (val_main_v35_apply x i).trans ((rdA_idx x _).trans (rdA_congr x rfl rfl (Nat.add_comm 1 (i 2).val) (Nat.add_zero (i 3).val).symm (Nat.add_comm 2 (i 4).val)))
theorem sl38 (x : (⟨S4x4x32x256x256, .f32⟩ : BufTy).Contents (Elt Ideal)) (i : S4x4x30x254x254.Idx) :
    val_main_v38 (F := Ideal) x i = rdA x (i 0).val (i 1).val ((i 2).val + 1) ((i 3).val + 1) ((i 4).val + 0) :=
  (val_main_v38_apply x i).trans ((rdA_idx x _).trans (rdA_congr x rfl rfl (Nat.add_comm 1 (i 2).val) (Nat.add_comm 1 (i 3).val) (Nat.add_zero (i 4).val).symm))
theorem sl41 (x : (⟨S4x4x32x256x256, .f32⟩ : BufTy).Contents (Elt Ideal)) (i : S4x4x30x254x254.Idx) :
    val_main_v41 (F := Ideal) x i = rdA x (i 0).val (i 1).val ((i 2).val + 1) ((i 3).val + 1) ((i 4).val + 2) :=
  (val_main_v41_apply x i).trans ((rdA_idx x _).trans (rdA_congr x rfl rfl (Nat.add_comm 1 (i 2).val) (Nat.add_comm 1 (i 3).val) (Nat.add_comm 2 (i 4).val)))
theorem sl44 (x : (⟨S4x4x32x256x256, .f32⟩ : BufTy).Contents (Elt Ideal)) (i : S4x4x30x254x254.Idx) :
    val_main_v44 (F := Ideal) x i = rdA x (i 0).val (i 1).val ((i 2).val + 1) ((i 3).val + 2) ((i 4).val + 0) :=
  (val_main_v44_apply x i).trans ((rdA_idx x _).trans (rdA_congr x rfl rfl (Nat.add_comm 1 (i 2).val) (Nat.add_comm 2 (i 3).val) (Nat.add_zero (i 4).val).symm))
theorem sl47 (x : (⟨S4x4x32x256x256, .f32⟩ : BufTy).Contents (Elt Ideal)) (i : S4x4x30x254x254.Idx) :
    val_main_v47 (F := Ideal) x i = rdA x (i 0).val (i 1).val ((i 2).val + 1) ((i 3).val + 2) ((i 4).val + 1) :=
  (val_main_v47_apply x i).trans ((rdA_idx x _).trans (rdA_congr x rfl rfl (Nat.add_comm 1 (i 2).val) (Nat.add_comm 2 (i 3).val) (Nat.add_comm 1 (i 4).val)))
theorem sl50 (x : (⟨S4x4x32x256x256, .f32⟩ : BufTy).Contents (Elt Ideal)) (i : S4x4x30x254x254.Idx) :
    val_main_v50 (F := Ideal) x i = rdA x (i 0).val (i 1).val ((i 2).val + 1) ((i 3).val + 2) ((i 4).val + 2) :=
  (val_main_v50_apply x i).trans ((rdA_idx x _).trans (rdA_congr x rfl rfl (Nat.add_comm 1 (i 2).val) (Nat.add_comm 2 (i 3).val) (Nat.add_comm 2 (i 4).val)))
theorem sl53 (x : (⟨S4x4x32x256x256, .f32⟩ : BufTy).Contents (Elt Ideal)) (i : S4x4x30x254x254.Idx) :
    val_main_v53 (F := Ideal) x i = rdA x (i 0).val (i 1).val ((i 2).val + 2) ((i 3).val + 0) ((i 4).val + 0) :=
  (val_main_v53_apply x i).trans ((rdA_idx x _).trans (rdA_congr x rfl rfl (Nat.add_comm 2 (i 2).val) (Nat.add_zero (i 3).val).symm (Nat.add_zero (i 4).val).symm))
theorem sl56 (x : (⟨S4x4x32x256x256, .f32⟩ : BufTy).Contents (Elt Ideal)) (i : S4x4x30x254x254.Idx) :
    val_main_v56 (F := Ideal) x i = rdA x (i 0).val (i 1).val ((i 2).val + 2) ((i 3).val + 0) ((i 4).val + 1) :=
  (val_main_v56_apply x i).trans ((rdA_idx x _).trans (rdA_congr x rfl rfl (Nat.add_comm 2 (i 2).val) (Nat.add_zero (i 3).val).symm (Nat.add_comm 1 (i 4).val)))
theorem sl59 (x : (⟨S4x4x32x256x256, .f32⟩ : BufTy).Contents (Elt Ideal)) (i : S4x4x30x254x254.Idx) :
    val_main_v59 (F := Ideal) x i = rdA x (i 0).val (i 1).val ((i 2).val + 2) ((i 3).val + 0) ((i 4).val + 2) :=
  (val_main_v59_apply x i).trans ((rdA_idx x _).trans (rdA_congr x rfl rfl (Nat.add_comm 2 (i 2).val) (Nat.add_zero (i 3).val).symm (Nat.add_comm 2 (i 4).val)))
theorem sl62 (x : (⟨S4x4x32x256x256, .f32⟩ : BufTy).Contents (Elt Ideal)) (i : S4x4x30x254x254.Idx) :
    val_main_v62 (F := Ideal) x i = rdA x (i 0).val (i 1).val ((i 2).val + 2) ((i 3).val + 1) ((i 4).val + 0) :=
  (val_main_v62_apply x i).trans ((rdA_idx x _).trans (rdA_congr x rfl rfl (Nat.add_comm 2 (i 2).val) (Nat.add_comm 1 (i 3).val) (Nat.add_zero (i 4).val).symm))
theorem sl65 (x : (⟨S4x4x32x256x256, .f32⟩ : BufTy).Contents (Elt Ideal)) (i : S4x4x30x254x254.Idx) :
    val_main_v65 (F := Ideal) x i = rdA x (i 0).val (i 1).val ((i 2).val + 2) ((i 3).val + 1) ((i 4).val + 1) :=
  (val_main_v65_apply x i).trans ((rdA_idx x _).trans (rdA_congr x rfl rfl (Nat.add_comm 2 (i 2).val) (Nat.add_comm 1 (i 3).val) (Nat.add_comm 1 (i 4).val)))
theorem sl68 (x : (⟨S4x4x32x256x256, .f32⟩ : BufTy).Contents (Elt Ideal)) (i : S4x4x30x254x254.Idx) :
    val_main_v68 (F := Ideal) x i = rdA x (i 0).val (i 1).val ((i 2).val + 2) ((i 3).val + 1) ((i 4).val + 2) :=
  (val_main_v68_apply x i).trans ((rdA_idx x _).trans (rdA_congr x rfl rfl (Nat.add_comm 2 (i 2).val) (Nat.add_comm 1 (i 3).val) (Nat.add_comm 2 (i 4).val)))
theorem sl71 (x : (⟨S4x4x32x256x256, .f32⟩ : BufTy).Contents (Elt Ideal)) (i : S4x4x30x254x254.Idx) :
    val_main_v71 (F := Ideal) x i = rdA x (i 0).val (i 1).val ((i 2).val + 2) ((i 3).val + 2) ((i 4).val + 0) :=
  (val_main_v71_apply x i).trans ((rdA_idx x _).trans (rdA_congr x rfl rfl (Nat.add_comm 2 (i 2).val) (Nat.add_comm 2 (i 3).val) (Nat.add_zero (i 4).val).symm))
theorem sl74 (x : (⟨S4x4x32x256x256, .f32⟩ : BufTy).Contents (Elt Ideal)) (i : S4x4x30x254x254.Idx) :
    val_main_v74 (F := Ideal) x i = rdA x (i 0).val (i 1).val ((i 2).val + 2) ((i 3).val + 2) ((i 4).val + 1) :=
  (val_main_v74_apply x i).trans ((rdA_idx x _).trans (rdA_congr x rfl rfl (Nat.add_comm 2 (i 2).val) (Nat.add_comm 2 (i 3).val) (Nat.add_comm 1 (i 4).val)))
theorem sl77 (x : (⟨S4x4x32x256x256, .f32⟩ : BufTy).Contents (Elt Ideal)) (i : S4x4x30x254x254.Idx) :
    val_main_v77 (F := Ideal) x i = rdA x (i 0).val (i 1).val ((i 2).val + 2) ((i 3).val + 2) ((i 4).val + 2) :=
  (val_main_v77_apply x i).trans ((rdA_idx x _).trans (rdA_congr x rfl rfl (Nat.add_comm 2 (i 2).val) (Nat.add_comm 2 (i 3).val) (Nat.add_comm 2 (i 4).val)))

/-! ## The inner mask -/

set_option maxHeartbeats 4000000 in
theorem inner_mask (x : (⟨S4x4x32x256x256, .f32⟩ : BufTy).Contents (Elt Ideal)) (i : S4x4x30x254x254.Idx) :
    val_main_v79 (F := Ideal) x i
      = mask26 (fun dz dy dx => rdA x (i 0).val (i 1).val ((i 2).val + dz) ((i 3).val + dy) ((i 4).val + dx)) := by
  simp only [val_main_v4_apply, val_main_v3_apply, val_main_v7_apply, val_main_v6_apply, val_main_v10_apply, val_main_v9_apply, val_main_v13_apply, val_main_v12_apply, val_main_v16_apply, val_main_v15_apply, val_main_v19_apply, val_main_v18_apply, val_main_v22_apply, val_main_v21_apply, val_main_v25_apply, val_main_v24_apply, val_main_v28_apply, val_main_v27_apply, val_main_v31_apply, val_main_v30_apply, val_main_v34_apply, val_main_v33_apply, val_main_v37_apply, val_main_v36_apply, val_main_v40_apply, val_main_v39_apply, val_main_v43_apply, val_main_v42_apply, val_main_v46_apply, val_main_v45_apply, val_main_v49_apply, val_main_v48_apply, val_main_v52_apply, val_main_v51_apply, val_main_v55_apply, val_main_v54_apply, val_main_v58_apply, val_main_v57_apply, val_main_v61_apply, val_main_v60_apply, val_main_v64_apply, val_main_v63_apply, val_main_v67_apply, val_main_v66_apply, val_main_v70_apply, val_main_v69_apply, val_main_v73_apply, val_main_v72_apply, val_main_v76_apply, val_main_v75_apply, val_main_v79_apply, val_main_v78_apply, val_main_v1_apply, val_main_c_apply, sl0, sl2, sl5, sl8, sl11, sl14, sl17, sl20, sl23, sl26, sl29, sl32, sl35, sl38, sl41, sl44, sl47, sl50, sl53, sl56, sl59, sl62, sl65, sl68, sl71, sl74, sl77]
  unfold mask26
  rfl

end Cert.ReferenceIdeal.RefValue

end
-- ==== Proof.RefValue.lean ====
/-
  The reference's result at the extended reals is the non-maxima suppression of its argument: the scatter places the
  inner mask at offset (1, 1, 1) — update index j lands on (j0, j1, 1 + j2, 1 + j3, 1 + j4), one target per update
  index, so an interior index reads the mask at the index shifted back by one and every other index reads false —
  and the product with the 0/1 mask keeps the interior maxima and zeroes the rest.
-/
import proofs.«107580_j35021163332235_2_alg».proof.Proof.RefMask

set_option maxRecDepth 16384

noncomputable section

namespace Cert.ReferenceIdeal.RefValue

open Idealize.ShloMosaic Idealize.ShloMosaic.ValueIdx Idealize.SL.Sem
open Cert.ReferenceIdeal Cert.ReferenceIdeal.Gen Cert.ReferenceIdeal.Read Cert.Nms Cert.ScatterSet

/-- The scatter's start vector is (1, 1, 1). -/
theorem starts (i : S3.Idx) : val_main_v84 (F := Ideal) i = 1#32 := by
  have hi : (i 0).val < 3 := (i 0).isLt
  have hne : ∀ (b : Fin S1.rank) (hr : S1.rank = S3.rank), b.cast hr ≠ (0 : Fin S3.rank) → (ix1 (⟨0, by decide⟩ : Fin 1) b).val = (i (b.cast hr)).val :=
    fun b hr hb => absurd (Fin.ext (by have hb1 : b.val < 1 := b.isLt; show b.val = 0; omega)) hb
  unfold val_main_v84
  rcases (show (i 0).val = 0 ∨ (i 0).val = 1 ∨ (i 0).val = 2 by omega) with h | h | h
  · exact (concatenate_apply_piece (0 : Fin S3.rank) ([⟨S1, (val_main_v81 (F := Ideal))⟩, ⟨S1, (val_main_v82 (F := Ideal))⟩, ⟨S1, (val_main_v83 (F := Ideal))⟩] : List ((s : Shape) × (s.Idx → BitVec 32))) concatenates_S1_S1_S1_S3_d0 i 0 (by decide) S1 (val_main_v81 (F := Ideal)) rfl rfl 0 rfl
      (ix1 ⟨0, by decide⟩) (fun b hb => hne b rfl hb) (by show 0 + 0 = (i 0).val; omega)).trans rfl
  · exact (concatenate_apply_piece (0 : Fin S3.rank) ([⟨S1, (val_main_v81 (F := Ideal))⟩, ⟨S1, (val_main_v82 (F := Ideal))⟩, ⟨S1, (val_main_v83 (F := Ideal))⟩] : List ((s : Shape) × (s.Idx → BitVec 32))) concatenates_S1_S1_S1_S3_d0 i 1 (by decide) S1 (val_main_v82 (F := Ideal)) rfl rfl 1 rfl
      (ix1 ⟨0, by decide⟩) (fun b hb => hne b rfl hb) (by show 1 + 0 = (i 0).val; omega)).trans rfl
  · exact (concatenate_apply_piece (0 : Fin S3.rank) ([⟨S1, (val_main_v81 (F := Ideal))⟩, ⟨S1, (val_main_v82 (F := Ideal))⟩, ⟨S1, (val_main_v83 (F := Ideal))⟩] : List ((s : Shape) × (s.Idx → BitVec 32))) concatenates_S1_S1_S1_S3_d0 i 2 (by decide) S1 (val_main_v83 (F := Ideal)) rfl rfl 2 rfl
      (ix1 ⟨0, by decide⟩) (fun b hb => hne b rfl hb) (by show 2 + 0 = (i 0).val; omega)).trans rfl

/-- Update index `j` lands on `i` exactly when `i` is `j` shifted by one on the three spatial axes. -/
theorem target_iff (j : S4x4x30x254x254.Idx) (i : S4x4x32x256x256.Idx) :
    scatter_S4x4x32x256x256_S3_S4x4x30x254x254_01234_n_234_0.resultIdx? j (val_main_v84 (F := Ideal)) = some i ↔
      (i 0).val = (j 0).val ∧ (i 1).val = (j 1).val ∧ (i 2).val = 1 + (j 2).val ∧ (i 3).val = 1 + (j 3).val
        ∧ (i 4).val = 1 + (j 4).val := by
  rw [resultIdx?_eq_some_iff]
  have s0 : scatter_S4x4x32x256x256_S3_S4x4x30x254x254_01234_n_234_0.start j (val_main_v84 (F := Ideal)) 0 = 0 := rfl
  have s1 : scatter_S4x4x32x256x256_S3_S4x4x30x254x254_01234_n_234_0.start j (val_main_v84 (F := Ideal)) 1 = 0 := rfl
  have s2 : scatter_S4x4x32x256x256_S3_S4x4x30x254x254_01234_n_234_0.start j (val_main_v84 (F := Ideal)) 2 = 1 := by
    unfold ScatterDims.start; rw [dif_pos (by decide), starts]; rfl
  have s3 : scatter_S4x4x32x256x256_S3_S4x4x30x254x254_01234_n_234_0.start j (val_main_v84 (F := Ideal)) 3 = 1 := by
    unfold ScatterDims.start; rw [dif_pos (by decide), starts]; rfl
  have s4 : scatter_S4x4x32x256x256_S3_S4x4x30x254x254_01234_n_234_0.start j (val_main_v84 (F := Ideal)) 4 = 1 := by
    unfold ScatterDims.start; rw [dif_pos (by decide), starts]; rfl
  have w0 : scatter_S4x4x32x256x256_S3_S4x4x30x254x254_01234_n_234_0.window j 0 = (j 0).val := rfl
  have w1 : scatter_S4x4x32x256x256_S3_S4x4x30x254x254_01234_n_234_0.window j 1 = (j 1).val := rfl
  have w2 : scatter_S4x4x32x256x256_S3_S4x4x30x254x254_01234_n_234_0.window j 2 = (j 2).val := rfl
  have w3 : scatter_S4x4x32x256x256_S3_S4x4x30x254x254_01234_n_234_0.window j 3 = (j 3).val := rfl
  have w4 : scatter_S4x4x32x256x256_S3_S4x4x30x254x254_01234_n_234_0.window j 4 = (j 4).val := rfl
  constructor
  · intro h
    have h0 := h 0; have h1 := h 1; have h2 := h 2; have h3 := h 3; have h4 := h 4
    rw [s0, w0] at h0; rw [s1, w1] at h1; rw [s2, w2] at h2; rw [s3, w3] at h3; rw [s4, w4] at h4
    omega
  · intro h a
    match a with
    | ⟨0, _⟩ => show scatter_S4x4x32x256x256_S3_S4x4x30x254x254_01234_n_234_0.start j (val_main_v84 (F := Ideal)) 0 + (scatter_S4x4x32x256x256_S3_S4x4x30x254x254_01234_n_234_0.window j 0 : ℤ) = ((i 0).val : ℤ); rw [s0, w0]; omega
    | ⟨1, _⟩ => show scatter_S4x4x32x256x256_S3_S4x4x30x254x254_01234_n_234_0.start j (val_main_v84 (F := Ideal)) 1 + (scatter_S4x4x32x256x256_S3_S4x4x30x254x254_01234_n_234_0.window j 1 : ℤ) = ((i 1).val : ℤ); rw [s1, w1]; omega
    | ⟨2, _⟩ => show scatter_S4x4x32x256x256_S3_S4x4x30x254x254_01234_n_234_0.start j (val_main_v84 (F := Ideal)) 2 + (scatter_S4x4x32x256x256_S3_S4x4x30x254x254_01234_n_234_0.window j 2 : ℤ) = ((i 2).val : ℤ); rw [s2, w2]; omega
    | ⟨3, _⟩ => show scatter_S4x4x32x256x256_S3_S4x4x30x254x254_01234_n_234_0.start j (val_main_v84 (F := Ideal)) 3 + (scatter_S4x4x32x256x256_S3_S4x4x30x254x254_01234_n_234_0.window j 3 : ℤ) = ((i 3).val : ℤ); rw [s3, w3]; omega
    | ⟨4, _⟩ => show scatter_S4x4x32x256x256_S3_S4x4x30x254x254_01234_n_234_0.start j (val_main_v84 (F := Ideal)) 4 + (scatter_S4x4x32x256x256_S3_S4x4x30x254x254_01234_n_234_0.window j 4 : ℤ) = ((i 4).val : ℤ); rw [s4, w4]; omega

/-- The scattered mask at an index. -/
theorem mask_apply (x : (⟨S4x4x32x256x256, .f32⟩ : BufTy).Contents (Elt Ideal)) (i : S4x4x32x256x256.Idx) :
    val_main_v85 (F := Ideal) x i = if Interior (i 2).val (i 3).val (i 4).val then
        mask26 (fun dz dy dx => rdA x (i 0).val (i 1).val ((i 2).val - 1 + dz) ((i 3).val - 1 + dy) ((i 4).val - 1 + dx))
      else 0#1 := by
  have hi0 : (i 0).val < 4 := (i 0).isLt
  have hi1 : (i 1).val < 4 := (i 1).isLt
  have hi2 : (i 2).val < 32 := (i 2).isLt
  have hi3 : (i 3).val < 256 := (i 3).isLt
  have hi4 : (i 4).val < 256 := (i 4).isLt
  unfold val_main_v85
  by_cases hI : Interior (i 2).val (i 3).val (i 4).val
  · rw [if_pos hI]
    unfold Interior at hI
    rw [scatter_hit scatter_S4x4x32x256x256_S3_S4x4x30x254x254_01234_n_234_0 (fun _ b => b) _ _ _ i
      (ix5 ⟨(i 0).val, hi0⟩ ⟨(i 1).val, hi1⟩ ⟨(i 2).val - 1, by omega⟩ ⟨(i 3).val - 1, by omega⟩ ⟨(i 4).val - 1, by omega⟩)
      ((target_iff _ i).mpr ⟨rfl, rfl, by show (i 2).val = 1 + ((i 2).val - 1); omega, by show (i 3).val = 1 + ((i 3).val - 1); omega,
        by show (i 4).val = 1 + ((i 4).val - 1); omega⟩)
      (fun j' hj' => by
        have h := (target_iff j' i).mp hj'
        funext a
        apply Fin.ext
        match a with
        | ⟨0, _⟩ => show (j' 0).val = (i 0).val; omega
        | ⟨1, _⟩ => show (j' 1).val = (i 1).val; omega
        | ⟨2, _⟩ => show (j' 2).val = (i 2).val - 1; omega
        | ⟨3, _⟩ => show (j' 3).val = (i 3).val - 1; omega
        | ⟨4, _⟩ => show (j' 4).val = (i 4).val - 1; omega)]
    exact inner_mask x _
  · rw [if_neg hI, scatter_miss scatter_S4x4x32x256x256_S3_S4x4x30x254x254_01234_n_234_0 (fun _ b => b) _ _ _ i (fun j hj => hI (by
      have h := (target_iff j i).mp hj
      have hj2 : (j 2).val < 30 := (j 2).isLt
      have hj3 : (j 3).val < 254 := (j 3).isLt
      have hj4 : (j 4).val < 254 := (j 4).isLt
      unfold Interior; omega))]
    rw [val_main_v80_apply]; rfl

/-- The reference's result is the suppression of its argument. -/
theorem result_eq (x : (⟨S4x4x32x256x256, .f32⟩ : BufTy).Contents (Elt Ideal)) : val_main_v87 (F := Ideal) x = nms x := by
  funext i
  rw [val_main_v87_apply, val_main_v86_apply, mask_apply]
  unfold nms
  by_cases hI : Interior (i 2).val (i 3).val (i 4).val
  · rw [if_pos hI, if_pos hI]
    unfold Interior at hI
    unfold core
    show x i * toF _ = _
    refine congrArg (· * toF _) ((rdA_idx x i).trans (rdA_congr x rfl rfl ?_ ?_ ?_)) <;> omega
  · rw [if_neg hI, if_neg hI]
    show x i * toF 0#1 = 0
    rw [toF_zero, mul_zero]

end Cert.ReferenceIdeal.RefValue

end
-- ==== Proof.lean ====
/-
  3x3x3 non-maxima suppression of x : f32[4, 4, 32, 256, 256]: a voxel survives when it is strictly greater than its 26
  neighbours; voxels on the border of a (batch, channel) volume are suppressed.

  The kernel handles one (batch, channel) volume per grid point: it zero-fills the output block and then, plane by
  plane for depths 1 … 30, overwrites the 254 x 254 interior with centre × indicator, the indicator the conjunction of
  the 26 strict comparisons against shifted windows of the planes below, at, and above.  The reference slices the whole
  array 27 times, forms the same conjunction over [4,4,30,254,254], scatters it at offset (1, 1, 1) into a false
  array, and multiplies the argument by the 0/1 mask.

  At the extended reals both results are the same function of the argument, `Cert.Nms.nms`: inside, the centre times
  the indicator of the same 26 comparisons; outside, the kernel's zero fill against the reference's product with 0,
  which is 0 on the extended reals whatever the other factor (so finiteness of the input is never used).

  The three frames: the kernel's two (word level and idealized) from the body's triple, stated once at any float
  instance — the output block after the body is the zero block overlaid by the thirty interior rectangles, each
  trip of the loop contributing one piece —; the reference's from its run.  The idealization rewrote nothing, so
  `preserves` is trivial.
-/
import proofs.«107580_j35021163332235_2_alg».proof.Defs
import proofs.«107580_j35021163332235_2_alg».proof.Proof.Gen.Kernel
import proofs.«107580_j35021163332235_2_alg».proof.Proof.Gen.KernelIdeal
import proofs.«107580_j35021163332235_2_alg».proof.Proof.Gen.ReferenceIdeal
import proofs.«107580_j35021163332235_2_alg».proof.Proof.Gen.Pre_finite_inputs
import proofs.«107580_j35021163332235_2_alg».proof.Proof.Gen.ReferenceIdeal.Run
import proofs.«107580_j35021163332235_2_alg».proof.Proof.KernelRun
import proofs.«107580_j35021163332235_2_alg».proof.Proof.IdealFinal
import proofs.«107580_j35021163332235_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the suppression of the (shared) argument array. -/
theorem algebraic : Cert.algebraic_KernelIdeal_ReferenceIdeal := by
  intro m ρ m' ρ' _ hagree
  refine ⟨fun c => Cert.Nms.nms (m ((c : Thread Cert.KernelIdeal.nD Cert.KernelIdeal.τ).loc Cert.KernelIdeal.main_arg0)),
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v87_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
